-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1600000x128 : Shape := ⟨2, ![1600000, 128]⟩
abbrev S1x1 : Shape := ⟨2, ![1, 1]⟩

abbrev nBuf : Space → Nat
  | .hbm => 139
  | .vmem => 69
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x1, .f32⟩
  | 16 => ⟨S1, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S_, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S100000x1, .f32⟩
  | 43 => ⟨S_, .f32⟩
  | 44 => ⟨S100000x1, .f32⟩
  | 45 => ⟨S_, .f32⟩
  | 46 => ⟨S1x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S1x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S1x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S1x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S1x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S1x128, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S1x128, .f32⟩
  | 9 => ⟨S1x1, .f32⟩
  | 10 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S5000x1, .f32⟩
  | .local _ .vmem, ⟨6, _⟩ => ⟨S5000x1, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S1x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S1x128, .f32⟩
  | .local _ .vmem, ⟨25, _⟩ => ⟨S5000x1, .f32⟩
  | .local _ .vmem, ⟨26, _⟩ => ⟨S5000x1, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S1x128, .f32⟩
  | .local _ .vmem, ⟨35, _⟩ => ⟨S5000x1, .f32⟩
  | .local _ .vmem, ⟨36, _⟩ => ⟨S5000x1, .f32⟩
  | .local _ .vmem, ⟨37, _⟩ => ⟨S128x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S1x128, .f32⟩
  | .local _ .vmem, ⟨45, _⟩ => ⟨S5000x1, .f32⟩
  | .local _ .vmem, ⟨46, _⟩ => ⟨S5000x1, .f32⟩
  | .local _ .vmem, ⟨47, _⟩ => ⟨S128x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x1, .f32⟩
  | .local _ .vmem, ⟨53, _⟩ => ⟨S5000x1, .f32⟩
  | .local _ .vmem, ⟨54, _⟩ => ⟨S1x128, .f32⟩
  | .local _ .vmem, ⟨55, _⟩ => ⟨S5000x1, .f32⟩
  | .local _ .vmem, ⟨56, _⟩ => ⟨S5000x1, .f32⟩
  | .local _ .vmem, ⟨57, _⟩ => ⟨S128x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x1, .f32⟩
  | .local _ .vmem, ⟨63, _⟩ => ⟨S5000x1, .f32⟩
  | .local _ .vmem, ⟨64, _⟩ => ⟨S1x128, .f32⟩
  | .local _ .vmem, ⟨65, _⟩ => ⟨S128x1, .f32⟩
  | .local _ .vmem, ⟨66, _⟩ => ⟨S1x1, .f32⟩
  | .local _ .vmem, ⟨67, _⟩ => ⟨S5000x1, .f32⟩
  | .local _ .vmem, ⟨68, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_cst_3 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v11 : Ref sig .tc := ⟨.hbm, 38, rfl⟩
abbrev main_cst_5 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_6 : Ref sig .tc := ⟨.hbm, 43, rfl⟩
abbrev main_v15 : Ref sig .tc := ⟨.hbm, 44, rfl⟩
abbrev main_cst_7 : Ref sig .tc := ⟨.hbm, 45, rfl⟩
abbrev main_v16 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_c_8 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_9 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_10 : Ref sig .tc := ⟨.hbm, 63, rfl⟩
abbrev main_v30 : Ref sig .tc := ⟨.hbm, 64, rfl⟩
abbrev main_v31 : Ref sig .tc := ⟨.hbm, 65, rfl⟩
abbrev main_c_11 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_12 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_13 : Ref sig .tc := ⟨.hbm, 78, rfl⟩
abbrev main_v42 : Ref sig .tc := ⟨.hbm, 79, rfl⟩
abbrev main_v43 : Ref sig .tc := ⟨.hbm, 80, rfl⟩
abbrev main_c_14 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_15 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_16 : Ref sig .tc := ⟨.hbm, 93, rfl⟩
abbrev main_v54 : Ref sig .tc := ⟨.hbm, 94, rfl⟩
abbrev main_v55 : Ref sig .tc := ⟨.hbm, 95, rfl⟩
abbrev main_c_17 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_18 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_19 : Ref sig .tc := ⟨.hbm, 108, rfl⟩
abbrev main_v66 : Ref sig .tc := ⟨.hbm, 109, rfl⟩
abbrev main_v67 : Ref sig .tc := ⟨.hbm, 110, rfl⟩
abbrev main_c_20 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_21 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_22 : Ref sig .tc := ⟨.hbm, 123, rfl⟩
abbrev main_v78 : Ref sig .tc := ⟨.hbm, 124, rfl⟩
abbrev main_v79 : Ref sig .tc := ⟨.hbm, 125, rfl⟩
abbrev main_c_23 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_24 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg3_1 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg5_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem3_1 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem3_1 : DmaSem sig := 46
abbrev cc4_sem4_0 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem3_1 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem5_1 : DmaSem sig := 68

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x1 : S_.BroadcastsInDim S100000x1 (![] : Fin 0 → Fin S100000x1.rank)
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  broadcasts_S5000x1_S5000x128 : S5000x1.Broadcasts S5000x128
  broadcasts_S1x128_S5000x128 : S1x128.Broadcasts S5000x128
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S100000x1.size a
  hwx6_5 : ∀ i : grid6.Coords, EltTy.bits .f32 = 32 ∨ (Rect.block (s := S100000x1) S5000x1.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v10) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg13) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v87) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v14) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg15) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v89) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v90) S5000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x1, .f32⟩
  | 16 => ⟨S1, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S100000x128, .f32⟩
  | 42 => ⟨S100000x1, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S100000x1, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x1, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S100000x1, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x1, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S100000x1, .f32⟩
  | 121 => ⟨S100000x128, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000x1, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S100000x1, .f32⟩
  | 19 => ⟨S100000x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x1, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S100000x1, .f32⟩
  | 45 => ⟨S100000x128, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x1, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S100000x1, .f32⟩
  | 67 => ⟨S1x1, .f32⟩
  | 68 => ⟨S100000x1, .f32⟩
  | 69 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_cst_3 : Ref sig .tc := ⟨.hbm, 31, rfl⟩
abbrev main_v8 : Ref sig .tc := ⟨.hbm, 32, rfl⟩
abbrev main_v9 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v10 : Ref sig .tc := ⟨.hbm, 37, rfl⟩
abbrev main_cst_5 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_6 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_7 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call2_cst : Ref sig .tc := ⟨.hbm, 64, rfl⟩
abbrev main_call2_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_8 : Ref sig .tc := ⟨.hbm, 71, rfl⟩
abbrev main_v38 : Ref sig .tc := ⟨.hbm, 72, rfl⟩
abbrev main_v39 : Ref sig .tc := ⟨.hbm, 73, rfl⟩
abbrev main_c_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_10 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call3_cst : Ref sig .tc := ⟨.hbm, 90, rfl⟩
abbrev main_call3_v0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_11 : Ref sig .tc := ⟨.hbm, 97, rfl⟩
abbrev main_v59 : Ref sig .tc := ⟨.hbm, 98, rfl⟩
abbrev main_v60 : Ref sig .tc := ⟨.hbm, 99, rfl⟩
abbrev main_c_12 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_13 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call4_cst : Ref sig .tc := ⟨.hbm, 116, rfl⟩
abbrev main_call4_v0 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_14 : Ref sig .tc := ⟨.hbm, 123, rfl⟩
abbrev main_v80 : Ref sig .tc := ⟨.hbm, 124, rfl⟩
abbrev main_v81 : Ref sig .tc := ⟨.hbm, 125, rfl⟩
abbrev main_c_15 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_16 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_call5_cst : Ref sig .tc := ⟨.hbm, 142, rfl⟩
abbrev main_call5_v0 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_17 : Ref sig .tc := ⟨.hbm, 149, rfl⟩
abbrev main_v101 : Ref sig .tc := ⟨.hbm, 150, rfl⟩
abbrev main_v102 : Ref sig .tc := ⟨.hbm, 151, rfl⟩
abbrev main_c_18 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_19 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_call6_cst : Ref sig .tc := ⟨.hbm, 168, rfl⟩
abbrev main_call6_v0 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_20 : Ref sig .tc := ⟨.hbm, 175, rfl⟩
abbrev main_v122 : Ref sig .tc := ⟨.hbm, 176, rfl⟩
abbrev main_v123 : Ref sig .tc := ⟨.hbm, 177, rfl⟩
abbrev main_c_21 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_22 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/- The idealized kernel's run with its result kept.  @main is eighteen segments: five stretches of host operations that
   build the degree norms, then seven tiled launches alternating with the six stretches that gather rows at the edge
   sources and sum them at the edge targets.  The buffer contents at every segment boundary are a fold from the launch
   memory; the run ends with every unscoped buffer at the last boundary's contents.  Here that last reading is kept
   for every buffer (the frame keeps it only for the arguments), so the result array is named. -/
import proofs.«155896_j79139067396492_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in every final state each unscoped buffer of each
    core holds the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

/-- The run with the result array named: it ends at the last boundary's contents of the result buffer, and every
    argument array ends as launched. -/
theorem run_result : θ_run defs (onTc (τ := τ) (main (F := F))) ⟨m, fun _ => 0, ρ⟩ (fun r => ∀ c : Dev nD,
      r.2.mem ((c.tc : Thread nD τ).loc main_v90) = W18 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
      ⟨h c _ (mem_uc main_v90 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c)⟩)
    (run_all m ρ)

end Cert.KernelIdeal.Run

end
-- ==== Proof.Stages.lean ====
/-
  Bookkeeping along the run of the idealized kernel's @main: eighteen segments, five stretches of host
  operations, then seven tiled launches alternating with six further host stretches. W0, …, W18 are the buffer contents
  at the segment boundaries (W0 the launch memory, W18 the contents at the return).

  * A launch writes its output array only: every other buffer reads at the launch's exit as at its entry
    (an array that is none of the launch's six is untouched; an input array is only read, so the fold of
    the write-backs at it is the array as entered).
  * A host stretch writes its own results only: the seventeen arguments and the two norm columns are
    written by no stretch after the first launch's entry, and the arguments by no stretch at all, so each
    reads at every later boundary as at the first launch's entry, and an argument there as launched.
  * What the stretches compute. Before the first launch: for each of the two edge-index arguments the
    column  max(1, count of the index's occurrences) ^ (-1/2)  over the 100000 nodes, a column of ones and
    a row of zeros. Before each later launch: the rows of the previous launch's output gathered at the
    edge sources (a negative source wrapped by +100000) and scatter-added at the edge targets from zero,
    and the bias argument reshaped to a row (before the last launch also the scalar argument reshaped to
    a 1×1 array).
-/
import proofs.«155896_j79139067396492_1_alg».proof.Proof.Gen.KernelIdeal.Frame
import Idealize.ShloMosaic.Lib.StableHlo.Run
set_option maxRecDepth 16384
noncomputable section
namespace Cert.KernelIdeal.Stages
open Cert.KernelIdeal Cert.KernelIdeal.Gen Idealize.ShloMosaic Idealize.ShloMosaic.TcCoe Idealize.SL.Sem Idealize.ShloMosaic.StableHlo
variable {F : FTy → Type} [FloatOps F]
variable (m : (ℓ : Loc nD τ sig) → Buf (Elt F) ℓ) (ρ : Dev nD → PrngReg)

/-! ## A launch leaves every buffer but its output as it found it

A buffer that is none of the launch's six arrays is untouched; an input array is read only, so the fold of
write-backs at it is the array as entered; the sixth array is the output. -/

theorem keep0 (c : Dev nD) (b : Ref sig .tc) (hb : b ≠ main_v17) :
    W6 m ρ c (Proc.devRef .tc b) = W5 m ρ c (Proc.devRef .tc b) := by
  by_cases h : ∃ w, Pipeline.arrRef spec0 w = b
  · obtain ⟨w, rfl⟩ := h
    match w with
    | ⟨0, _⟩ => exact (W6_arr m ρ c 0).trans (((dat0 (V5 m ρ) c).arrAt_in 0 rfl _).trans (A_eq0 (V5 m ρ) c 0))
    | ⟨1, _⟩ => exact (W6_arr m ρ c 1).trans (((dat0 (V5 m ρ) c).arrAt_in 1 rfl _).trans (A_eq0 (V5 m ρ) c 1))
    | ⟨2, _⟩ => exact (W6_arr m ρ c 2).trans (((dat0 (V5 m ρ) c).arrAt_in 2 rfl _).trans (A_eq0 (V5 m ρ) c 2))
    | ⟨3, _⟩ => exact (W6_arr m ρ c 3).trans (((dat0 (V5 m ρ) c).arrAt_in 3 rfl _).trans (A_eq0 (V5 m ρ) c 3))
    | ⟨4, _⟩ => exact (W6_arr m ρ c 4).trans (((dat0 (V5 m ρ) c).arrAt_in 4 rfl _).trans (A_eq0 (V5 m ρ) c 4))
    | ⟨5, _⟩ => exact absurd rfl hb
    | ⟨n + 6, h⟩ => exact absurd h (Nat.not_lt.2 (Nat.le_add_left _ _))
  · exact W6_of_ne m ρ c b (fun w e => h ⟨w, e⟩)

theorem keep1 (c : Dev nD) (b : Ref sig .tc) (hb : b ≠ main_v29) :
    W8 m ρ c (Proc.devRef .tc b) = W7 m ρ c (Proc.devRef .tc b) := by
  by_cases h : ∃ w, Pipeline.arrRef spec1 w = b
  · obtain ⟨w, rfl⟩ := h
    match w with
    | ⟨0, _⟩ => exact (W8_arr m ρ c 0).trans (((dat1 (V7 m ρ) c).arrAt_in 0 rfl _).trans (A_eq1 (V7 m ρ) c 0))
    | ⟨1, _⟩ => exact (W8_arr m ρ c 1).trans (((dat1 (V7 m ρ) c).arrAt_in 1 rfl _).trans (A_eq1 (V7 m ρ) c 1))
    | ⟨2, _⟩ => exact (W8_arr m ρ c 2).trans (((dat1 (V7 m ρ) c).arrAt_in 2 rfl _).trans (A_eq1 (V7 m ρ) c 2))
    | ⟨3, _⟩ => exact (W8_arr m ρ c 3).trans (((dat1 (V7 m ρ) c).arrAt_in 3 rfl _).trans (A_eq1 (V7 m ρ) c 3))
    | ⟨4, _⟩ => exact (W8_arr m ρ c 4).trans (((dat1 (V7 m ρ) c).arrAt_in 4 rfl _).trans (A_eq1 (V7 m ρ) c 4))
    | ⟨5, _⟩ => exact absurd rfl hb
    | ⟨n + 6, h⟩ => exact absurd h (Nat.not_lt.2 (Nat.le_add_left _ _))
  · exact W8_of_ne m ρ c b (fun w e => h ⟨w, e⟩)

theorem keep2 (c : Dev nD) (b : Ref sig .tc) (hb : b ≠ main_v41) :
    W10 m ρ c (Proc.devRef .tc b) = W9 m ρ c (Proc.devRef .tc b) := by
  by_cases h : ∃ w, Pipeline.arrRef spec2 w = b
  · obtain ⟨w, rfl⟩ := h
    match w with
    | ⟨0, _⟩ => exact (W10_arr m ρ c 0).trans (((dat2 (V9 m ρ) c).arrAt_in 0 rfl _).trans (A_eq2 (V9 m ρ) c 0))
    | ⟨1, _⟩ => exact (W10_arr m ρ c 1).trans (((dat2 (V9 m ρ) c).arrAt_in 1 rfl _).trans (A_eq2 (V9 m ρ) c 1))
    | ⟨2, _⟩ => exact (W10_arr m ρ c 2).trans (((dat2 (V9 m ρ) c).arrAt_in 2 rfl _).trans (A_eq2 (V9 m ρ) c 2))
    | ⟨3, _⟩ => exact (W10_arr m ρ c 3).trans (((dat2 (V9 m ρ) c).arrAt_in 3 rfl _).trans (A_eq2 (V9 m ρ) c 3))
    | ⟨4, _⟩ => exact (W10_arr m ρ c 4).trans (((dat2 (V9 m ρ) c).arrAt_in 4 rfl _).trans (A_eq2 (V9 m ρ) c 4))
    | ⟨5, _⟩ => exact absurd rfl hb
    | ⟨n + 6, h⟩ => exact absurd h (Nat.not_lt.2 (Nat.le_add_left _ _))
  · exact W10_of_ne m ρ c b (fun w e => h ⟨w, e⟩)

theorem keep3 (c : Dev nD) (b : Ref sig .tc) (hb : b ≠ main_v53) :
    W12 m ρ c (Proc.devRef .tc b) = W11 m ρ c (Proc.devRef .tc b) := by
  by_cases h : ∃ w, Pipeline.arrRef spec3 w = b
  · obtain ⟨w, rfl⟩ := h
    match w with
    | ⟨0, _⟩ => exact (W12_arr m ρ c 0).trans (((dat3 (V11 m ρ) c).arrAt_in 0 rfl _).trans (A_eq3 (V11 m ρ) c 0))
    | ⟨1, _⟩ => exact (W12_arr m ρ c 1).trans (((dat3 (V11 m ρ) c).arrAt_in 1 rfl _).trans (A_eq3 (V11 m ρ) c 1))
    | ⟨2, _⟩ => exact (W12_arr m ρ c 2).trans (((dat3 (V11 m ρ) c).arrAt_in 2 rfl _).trans (A_eq3 (V11 m ρ) c 2))
    | ⟨3, _⟩ => exact (W12_arr m ρ c 3).trans (((dat3 (V11 m ρ) c).arrAt_in 3 rfl _).trans (A_eq3 (V11 m ρ) c 3))
    | ⟨4, _⟩ => exact (W12_arr m ρ c 4).trans (((dat3 (V11 m ρ) c).arrAt_in 4 rfl _).trans (A_eq3 (V11 m ρ) c 4))
    | ⟨5, _⟩ => exact absurd rfl hb
    | ⟨n + 6, h⟩ => exact absurd h (Nat.not_lt.2 (Nat.le_add_left _ _))
  · exact W12_of_ne m ρ c b (fun w e => h ⟨w, e⟩)

theorem keep4 (c : Dev nD) (b : Ref sig .tc) (hb : b ≠ main_v65) :
    W14 m ρ c (Proc.devRef .tc b) = W13 m ρ c (Proc.devRef .tc b) := by
  by_cases h : ∃ w, Pipeline.arrRef spec4 w = b
  · obtain ⟨w, rfl⟩ := h
    match w with
    | ⟨0, _⟩ => exact (W14_arr m ρ c 0).trans (((dat4 (V13 m ρ) c).arrAt_in 0 rfl _).trans (A_eq4 (V13 m ρ) c 0))
    | ⟨1, _⟩ => exact (W14_arr m ρ c 1).trans (((dat4 (V13 m ρ) c).arrAt_in 1 rfl _).trans (A_eq4 (V13 m ρ) c 1))
    | ⟨2, _⟩ => exact (W14_arr m ρ c 2).trans (((dat4 (V13 m ρ) c).arrAt_in 2 rfl _).trans (A_eq4 (V13 m ρ) c 2))
    | ⟨3, _⟩ => exact (W14_arr m ρ c 3).trans (((dat4 (V13 m ρ) c).arrAt_in 3 rfl _).trans (A_eq4 (V13 m ρ) c 3))
    | ⟨4, _⟩ => exact (W14_arr m ρ c 4).trans (((dat4 (V13 m ρ) c).arrAt_in 4 rfl _).trans (A_eq4 (V13 m ρ) c 4))
    | ⟨5, _⟩ => exact absurd rfl hb
    | ⟨n + 6, h⟩ => exact absurd h (Nat.not_lt.2 (Nat.le_add_left _ _))
  · exact W14_of_ne m ρ c b (fun w e => h ⟨w, e⟩)

theorem keep5 (c : Dev nD) (b : Ref sig .tc) (hb : b ≠ main_v77) :
    W16 m ρ c (Proc.devRef .tc b) = W15 m ρ c (Proc.devRef .tc b) := by
  by_cases h : ∃ w, Pipeline.arrRef spec5 w = b
  · obtain ⟨w, rfl⟩ := h
    match w with
    | ⟨0, _⟩ => exact (W16_arr m ρ c 0).trans (((dat5 (V15 m ρ) c).arrAt_in 0 rfl _).trans (A_eq5 (V15 m ρ) c 0))
    | ⟨1, _⟩ => exact (W16_arr m ρ c 1).trans (((dat5 (V15 m ρ) c).arrAt_in 1 rfl _).trans (A_eq5 (V15 m ρ) c 1))
    | ⟨2, _⟩ => exact (W16_arr m ρ c 2).trans (((dat5 (V15 m ρ) c).arrAt_in 2 rfl _).trans (A_eq5 (V15 m ρ) c 2))
    | ⟨3, _⟩ => exact (W16_arr m ρ c 3).trans (((dat5 (V15 m ρ) c).arrAt_in 3 rfl _).trans (A_eq5 (V15 m ρ) c 3))
    | ⟨4, _⟩ => exact (W16_arr m ρ c 4).trans (((dat5 (V15 m ρ) c).arrAt_in 4 rfl _).trans (A_eq5 (V15 m ρ) c 4))
    | ⟨5, _⟩ => exact absurd rfl hb
    | ⟨n + 6, h⟩ => exact absurd h (Nat.not_lt.2 (Nat.le_add_left _ _))
  · exact W16_of_ne m ρ c b (fun w e => h ⟨w, e⟩)

theorem keep6 (c : Dev nD) (b : Ref sig .tc) (hb : b ≠ main_v90) :
    W18 m ρ c (Proc.devRef .tc b) = W17 m ρ c (Proc.devRef .tc b) := by
  by_cases h : ∃ w, Pipeline.arrRef spec6 w = b
  · obtain ⟨w, rfl⟩ := h
    match w with
    | ⟨0, _⟩ => exact (W18_arr m ρ c 0).trans (((dat6 (V17 m ρ) c).arrAt_in 0 rfl _).trans (A_eq6 (V17 m ρ) c 0))
    | ⟨1, _⟩ => exact (W18_arr m ρ c 1).trans (((dat6 (V17 m ρ) c).arrAt_in 1 rfl _).trans (A_eq6 (V17 m ρ) c 1))
    | ⟨2, _⟩ => exact (W18_arr m ρ c 2).trans (((dat6 (V17 m ρ) c).arrAt_in 2 rfl _).trans (A_eq6 (V17 m ρ) c 2))
    | ⟨3, _⟩ => exact (W18_arr m ρ c 3).trans (((dat6 (V17 m ρ) c).arrAt_in 3 rfl _).trans (A_eq6 (V17 m ρ) c 3))
    | ⟨4, _⟩ => exact (W18_arr m ρ c 4).trans (((dat6 (V17 m ρ) c).arrAt_in 4 rfl _).trans (A_eq6 (V17 m ρ) c 4))
    | ⟨5, _⟩ => exact absurd rfl hb
    | ⟨n + 6, h⟩ => exact absurd h (Nat.not_lt.2 (Nat.le_add_left _ _))
  · exact W18_of_ne m ρ c b (fun w e => h ⟨w, e⟩)

/-! ## The buffers nothing after the first launch's entry writes: the seventeen arguments and the two norm columns -/

def stable : List (Ref sig .tc) := [main_arg0, main_arg1, main_arg2, main_arg3, main_arg4, main_arg5, main_arg6, main_arg7, main_arg8, main_arg9, main_arg10, main_arg11, main_arg12, main_arg13, main_arg14, main_arg15, main_arg16, main_v10, main_v14]

/-- No stable buffer is a launch's output. -/
theorem stable_ne_out : ∀ b ∈ stable, b ≠ main_v17 ∧ b ≠ main_v29 ∧ b ≠ main_v41 ∧ b ≠ main_v53 ∧ b ≠ main_v65
    ∧ b ≠ main_v77 ∧ b ≠ main_v90 := by decide

/-- A buffer that no operation of a stretch writes is read after the stretch as before it. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The stretch before launch 1 writes no stable buffer. -/
theorem hkeep1 (c : Dev nD) : ∀ b ∈ stable, W7 m ρ c (Proc.devRef .tc b) = W6 m ρ c (Proc.devRef .tc b) := by
  intro b hb
  simp only [stable, List.mem_cons, List.mem_nil_iff, or_false] at hb
  rcases hb with rfl | rfl | rfl | rfl | rfl | rfl | rfl | rfl | rfl | rfl | rfl | rfl | rfl | rfl | rfl | rfl | rfl | rfl | rfl
  all_goals host_keep hostOps1

/-- The stretch before launch 2 writes no stable buffer. -/
theorem hkeep2 (c : Dev nD) : ∀ b ∈ stable, W9 m ρ c (Proc.devRef .tc b) = W8 m ρ c (Proc.devRef .tc b) := by
  intro b hb
  simp only [stable, List.mem_cons, List.mem_nil_iff, or_false] at hb
  rcases hb with rfl | rfl | rfl | rfl | rfl | rfl | rfl | rfl | rfl | rfl | rfl | rfl | rfl | rfl | rfl | rfl | rfl | rfl | rfl
  all_goals host_keep hostOps2

/-- The stretch before launch 3 writes no stable buffer. -/
theorem hkeep3 (c : Dev nD) : ∀ b ∈ stable, W11 m ρ c (Proc.devRef .tc b) = W10 m ρ c (Proc.devRef .tc b) := by
  intro b hb
  simp only [stable, List.mem_cons, List.mem_nil_iff, or_false] at hb
  rcases hb with rfl | rfl | rfl | rfl | rfl | rfl | rfl | rfl | rfl | rfl | rfl | rfl | rfl | rfl | rfl | rfl | rfl | rfl | rfl
  all_goals host_keep hostOps3

/-- The stretch before launch 4 writes no stable buffer. -/
theorem hkeep4 (c : Dev nD) : ∀ b ∈ stable, W13 m ρ c (Proc.devRef .tc b) = W12 m ρ c (Proc.devRef .tc b) := by
  intro b hb
  simp only [stable, List.mem_cons, List.mem_nil_iff, or_false] at hb
  rcases hb with rfl | rfl | rfl | rfl | rfl | rfl | rfl | rfl | rfl | rfl | rfl | rfl | rfl | rfl | rfl | rfl | rfl | rfl | rfl
  all_goals host_keep hostOps4

/-- The stretch before launch 5 writes no stable buffer. -/
theorem hkeep5 (c : Dev nD) : ∀ b ∈ stable, W15 m ρ c (Proc.devRef .tc b) = W14 m ρ c (Proc.devRef .tc b) := by
  intro b hb
  simp only [stable, List.mem_cons, List.mem_nil_iff, or_false] at hb
  rcases hb with rfl | rfl | rfl | rfl | rfl | rfl | rfl | rfl | rfl | rfl | rfl | rfl | rfl | rfl | rfl | rfl | rfl | rfl | rfl
  all_goals host_keep hostOps5

/-- The stretch before launch 6 writes no stable buffer. -/
theorem hkeep6 (c : Dev nD) : ∀ b ∈ stable, W17 m ρ c (Proc.devRef .tc b) = W16 m ρ c (Proc.devRef .tc b) := by
  intro b hb
  simp only [stable, List.mem_cons, List.mem_nil_iff, or_false] at hb
  rcases hb with rfl | rfl | rfl | rfl | rfl | rfl | rfl | rfl | rfl | rfl | rfl | rfl | rfl | rfl | rfl | rfl | rfl | rfl | rfl
  all_goals host_keep hostOps6

/-! ## Chained to the first launch's entry: a stable buffer reads at every later boundary as there -/

theorem at6 (c : Dev nD) : ∀ b ∈ stable, W6 m ρ c (Proc.devRef .tc b) = W5 m ρ c (Proc.devRef .tc b) :=
  fun b hb => keep0 m ρ c b (stable_ne_out b hb).1
theorem at7 (c : Dev nD) : ∀ b ∈ stable, W7 m ρ c (Proc.devRef .tc b) = W5 m ρ c (Proc.devRef .tc b) :=
  fun b hb => (hkeep1 m ρ c b hb).trans (at6 m ρ c b hb)
theorem at8 (c : Dev nD) : ∀ b ∈ stable, W8 m ρ c (Proc.devRef .tc b) = W5 m ρ c (Proc.devRef .tc b) :=
  fun b hb => (keep1 m ρ c b (stable_ne_out b hb).2.1).trans (at7 m ρ c b hb)
theorem at9 (c : Dev nD) : ∀ b ∈ stable, W9 m ρ c (Proc.devRef .tc b) = W5 m ρ c (Proc.devRef .tc b) :=
  fun b hb => (hkeep2 m ρ c b hb).trans (at8 m ρ c b hb)
theorem at10 (c : Dev nD) : ∀ b ∈ stable, W10 m ρ c (Proc.devRef .tc b) = W5 m ρ c (Proc.devRef .tc b) :=
  fun b hb => (keep2 m ρ c b (stable_ne_out b hb).2.2.1).trans (at9 m ρ c b hb)
theorem at11 (c : Dev nD) : ∀ b ∈ stable, W11 m ρ c (Proc.devRef .tc b) = W5 m ρ c (Proc.devRef .tc b) :=
  fun b hb => (hkeep3 m ρ c b hb).trans (at10 m ρ c b hb)
theorem at12 (c : Dev nD) : ∀ b ∈ stable, W12 m ρ c (Proc.devRef .tc b) = W5 m ρ c (Proc.devRef .tc b) :=
  fun b hb => (keep3 m ρ c b (stable_ne_out b hb).2.2.2.1).trans (at11 m ρ c b hb)
theorem at13 (c : Dev nD) : ∀ b ∈ stable, W13 m ρ c (Proc.devRef .tc b) = W5 m ρ c (Proc.devRef .tc b) :=
  fun b hb => (hkeep4 m ρ c b hb).trans (at12 m ρ c b hb)
theorem at14 (c : Dev nD) : ∀ b ∈ stable, W14 m ρ c (Proc.devRef .tc b) = W5 m ρ c (Proc.devRef .tc b) :=
  fun b hb => (keep4 m ρ c b (stable_ne_out b hb).2.2.2.2.1).trans (at13 m ρ c b hb)
theorem at15 (c : Dev nD) : ∀ b ∈ stable, W15 m ρ c (Proc.devRef .tc b) = W5 m ρ c (Proc.devRef .tc b) :=
  fun b hb => (hkeep5 m ρ c b hb).trans (at14 m ρ c b hb)
theorem at16 (c : Dev nD) : ∀ b ∈ stable, W16 m ρ c (Proc.devRef .tc b) = W5 m ρ c (Proc.devRef .tc b) :=
  fun b hb => (keep5 m ρ c b (stable_ne_out b hb).2.2.2.2.2.1).trans (at15 m ρ c b hb)
theorem at17 (c : Dev nD) : ∀ b ∈ stable, W17 m ρ c (Proc.devRef .tc b) = W5 m ρ c (Proc.devRef .tc b) :=
  fun b hb => (hkeep6 m ρ c b hb).trans (at16 m ρ c b hb)

/-- The five first stretches write no argument: at the first launch's entry an argument reads as launched. -/
theorem arg_at5 (c : Dev nD) : ∀ b ∈ [main_arg0, main_arg1, main_arg2, main_arg3, main_arg4, main_arg5, main_arg6, main_arg7,
      main_arg8, main_arg9, main_arg10, main_arg11, main_arg12, main_arg13, main_arg14, main_arg15, main_arg16],
    W5 m ρ c (Proc.devRef .tc b) = m ((c : Thread nD τ).loc b) := by
  intro b hb
  simp only [List.mem_cons, List.mem_nil_iff, or_false] at hb
  rcases hb with rfl | rfl | rfl | rfl | rfl | rfl | rfl | rfl | rfl | rfl | rfl | rfl | rfl | rfl | rfl | rfl | rfl
  all_goals
    refine (?h4 : W5 m ρ c _ = W4 m ρ c _).trans ((?h3 : W4 m ρ c _ = W3 m ρ c _).trans
      ((?h2 : W3 m ρ c _ = W2 m ρ c _).trans ((?h1 : W2 m ρ c _ = W1 m ρ c _).trans
      ((?h0 : W1 m ρ c _ = W0 m ρ c _).trans rfl))))
    case h4 => host_keep hostOps0_4
    case h3 => host_keep hostOps0_3
    case h2 => host_keep hostOps0_2
    case h1 => host_keep hostOps0_1
    case h0 => host_keep hostOps0

/-! ## What the five first stretches compute -/

/-- The norm column of an edge-index argument: max(1, occurrences) ^ (-1/2), as a column. -/
def normCol (idx : (⟨S1600000, .i32⟩ : BufTy).Contents (Elt F)) : (⟨S100000x1, .f32⟩ : BufTy).Contents (Elt F) :=
  shapeCast S100000x1 (Host.powf (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 idx) (broadcastInDim S1600000 ![] bcast_S_S1600000 (constant S_ .f32 0x3F800000#32)))) (broadcastInDim S100000 ![] bcast_S_S100000 (constant S_ .f32 0xBF000000#32))) shapeCasts_S100000_S100000x1

theorem W5_v10 (c : Dev nD) : W5 m ρ c (Proc.devRef .tc main_v10) = normCol (m ((c : Thread nD τ).loc main_arg1)) := by
  dsimp only [W5, W4, W3, W2, W1]
  after_results
  rfl
theorem W5_v14 (c : Dev nD) : W5 m ρ c (Proc.devRef .tc main_v14) = normCol (m ((c : Thread nD τ).loc main_arg2)) := by
  dsimp only [W5, W4, W3, W2, W1]
  after_results
  rfl
theorem W5_v15 (c : Dev nD) : W5 m ρ c (Proc.devRef .tc main_v15) = broadcastInDim S100000x1 ![] bcast_S_S100000x1 (constant S_ .f32 0x3F800000#32) := by
  show StableHlo.after hostOps0_4 (W4 m ρ c) (Proc.devRef .tc main_v15) = _
  after_results
theorem W5_v16 (c : Dev nD) : W5 m ρ c (Proc.devRef .tc main_v16) = broadcastInDim S1x128 ![] bcast_S_S1x128 (constant S_ .f32 0x00000000#32) := by
  show StableHlo.after hostOps0_4 (W4 m ρ c) (Proc.devRef .tc main_v16) = _
  after_results

/-! ## What each later stretch computes from the boundary before it -/

/-- The rows of `y` gathered at the wrapped edge sources, scatter-added at the edge targets from zero. -/
def agg (src dst : (⟨S1600000, .i32⟩ : BufTy).Contents (Elt F)) (y : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 y (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

theorem host1_agg (c : Dev nD) : W7 m ρ c (Proc.devRef .tc main_v27) = agg (W6 m ρ c (Proc.devRef .tc main_arg1)) (W6 m ρ c (Proc.devRef .tc main_arg2)) (W6 m ρ c (Proc.devRef .tc main_v17)) := by
  show StableHlo.after hostOps1 (W6 m ρ c) (Proc.devRef .tc main_v27) = _
  after_results
  rfl
theorem host1_bias (c : Dev nD) : W7 m ρ c (Proc.devRef .tc main_v28) = shapeCast S1x128 (W6 m ρ c (Proc.devRef .tc main_arg4)) shapeCasts_S128_S1x128 := by
  show StableHlo.after hostOps1 (W6 m ρ c) (Proc.devRef .tc main_v28) = _
  after_results
  rfl

theorem host2_agg (c : Dev nD) : W9 m ρ c (Proc.devRef .tc main_v39) = agg (W8 m ρ c (Proc.devRef .tc main_arg1)) (W8 m ρ c (Proc.devRef .tc main_arg2)) (W8 m ρ c (Proc.devRef .tc main_v29)) := by
  show StableHlo.after hostOps2 (W8 m ρ c) (Proc.devRef .tc main_v39) = _
  after_results
  rfl
theorem host2_bias (c : Dev nD) : W9 m ρ c (Proc.devRef .tc main_v40) = shapeCast S1x128 (W8 m ρ c (Proc.devRef .tc main_arg6)) shapeCasts_S128_S1x128 := by
  show StableHlo.after hostOps2 (W8 m ρ c) (Proc.devRef .tc main_v40) = _
  after_results
  rfl

theorem host3_agg (c : Dev nD) : W11 m ρ c (Proc.devRef .tc main_v51) = agg (W10 m ρ c (Proc.devRef .tc main_arg1)) (W10 m ρ c (Proc.devRef .tc main_arg2)) (W10 m ρ c (Proc.devRef .tc main_v41)) := by
  show StableHlo.after hostOps3 (W10 m ρ c) (Proc.devRef .tc main_v51) = _
  after_results
  rfl
theorem host3_bias (c : Dev nD) : W11 m ρ c (Proc.devRef .tc main_v52) = shapeCast S1x128 (W10 m ρ c (Proc.devRef .tc main_arg8)) shapeCasts_S128_S1x128 := by
  show StableHlo.after hostOps3 (W10 m ρ c) (Proc.devRef .tc main_v52) = _
  after_results
  rfl

theorem host4_agg (c : Dev nD) : W13 m ρ c (Proc.devRef .tc main_v63) = agg (W12 m ρ c (Proc.devRef .tc main_arg1)) (W12 m ρ c (Proc.devRef .tc main_arg2)) (W12 m ρ c (Proc.devRef .tc main_v53)) := by
  show StableHlo.after hostOps4 (W12 m ρ c) (Proc.devRef .tc main_v63) = _
  after_results
  rfl
theorem host4_bias (c : Dev nD) : W13 m ρ c (Proc.devRef .tc main_v64) = shapeCast S1x128 (W12 m ρ c (Proc.devRef .tc main_arg10)) shapeCasts_S128_S1x128 := by
  show StableHlo.after hostOps4 (W12 m ρ c) (Proc.devRef .tc main_v64) = _
  after_results
  rfl

theorem host5_agg (c : Dev nD) : W15 m ρ c (Proc.devRef .tc main_v75) = agg (W14 m ρ c (Proc.devRef .tc main_arg1)) (W14 m ρ c (Proc.devRef .tc main_arg2)) (W14 m ρ c (Proc.devRef .tc main_v65)) := by
  show StableHlo.after hostOps5 (W14 m ρ c) (Proc.devRef .tc main_v75) = _
  after_results
  rfl
theorem host5_bias (c : Dev nD) : W15 m ρ c (Proc.devRef .tc main_v76) = shapeCast S1x128 (W14 m ρ c (Proc.devRef .tc main_arg12)) shapeCasts_S128_S1x128 := by
  show StableHlo.after hostOps5 (W14 m ρ c) (Proc.devRef .tc main_v76) = _
  after_results
  rfl

theorem host6_agg (c : Dev nD) : W17 m ρ c (Proc.devRef .tc main_v87) = agg (W16 m ρ c (Proc.devRef .tc main_arg1)) (W16 m ρ c (Proc.devRef .tc main_arg2)) (W16 m ρ c (Proc.devRef .tc main_v77)) := by
  show StableHlo.after hostOps6 (W16 m ρ c) (Proc.devRef .tc main_v87) = _
  after_results
  rfl
theorem host6_bias (c : Dev nD) : W17 m ρ c (Proc.devRef .tc main_v88) = shapeCast S1x128 (W16 m ρ c (Proc.devRef .tc main_arg14)) shapeCasts_S128_S1x128 := by
  show StableHlo.after hostOps6 (W16 m ρ c) (Proc.devRef .tc main_v88) = _
  after_results
  rfl
theorem host6_bl (c : Dev nD) : W17 m ρ c (Proc.devRef .tc main_v89) = shapeCast S1x1 (W16 m ρ c (Proc.devRef .tc main_arg16)) shapeCasts_S1_S1x1 := by
  show StableHlo.after hostOps6 (W16 m ρ c) (Proc.devRef .tc main_v89) = _
  after_results
  rfl

end Cert.KernelIdeal.Stages
-- ==== Proof.LayerSpec.lean ====
/- One graph-convolution launch as a function of whole arrays.  A launch takes the previous layer's edge sums X, a
   column of target-degree norms, the previous layer's bias as a row, a column of source-degree norms and the next
   layer's weights, and returns, at row p and column q,
       (∑ₖ act (X p k · nrm p + bias k) · W k q) · onrm p,
   that is: finish the previous layer (scale, shift, activate), multiply by the weights, scale by the source norm.
   The last launch finishes layer six and applies the linear head:  ∑ₖ (X p k · nrm p + bias k) · Wl k + bl.
   Both are stated for any number of rows, so that the same formula reads a 5000-row block and the 100000-row array. -/
import Idealize.ShloMosaic.Lib.ValueIdx
import Idealize.ShloMosaic.PureOps.Ideal

noncomputable section

open scoped BigOperators

namespace Cert.LayerSpec

open Idealize.ShloMosaic Idealize.ShloMosaic.ValueIdx

/-- Entry (p, q) of a launch over R rows. -/
def stepAt {R : ℕ} (act : EReal → EReal) (X : (⟨2, ![R, 128]⟩ : Shape).Idx → EReal)
    (nrm : (⟨2, ![R, 1]⟩ : Shape).Idx → EReal) (bias : (⟨2, ![1, 128]⟩ : Shape).Idx → EReal)
    (onrm : (⟨2, ![R, 1]⟩ : Shape).Idx → EReal) (W : (⟨2, ![128, 128]⟩ : Shape).Idx → EReal)
    (p : Fin R) (q : Fin 128) : EReal :=
  (∑ k : Fin 128, act (X (ix2 p k) * nrm (ix2 p (0 : Fin 1)) + bias (ix2 (0 : Fin 1) k)) * W (ix2 k q))
    * onrm (ix2 p (0 : Fin 1))

/-- A launch over R rows, as an array. -/
def step {R : ℕ} (act : EReal → EReal) (X : (⟨2, ![R, 128]⟩ : Shape).Idx → EReal)
    (nrm : (⟨2, ![R, 1]⟩ : Shape).Idx → EReal) (bias : (⟨2, ![1, 128]⟩ : Shape).Idx → EReal)
    (onrm : (⟨2, ![R, 1]⟩ : Shape).Idx → EReal) (W : (⟨2, ![128, 128]⟩ : Shape).Idx → EReal) :
    (⟨2, ![R, 128]⟩ : Shape).Idx → EReal :=
  fun i => stepAt act X nrm bias onrm W (i 0) (i 1)

theorem step_apply {R : ℕ} (act : EReal → EReal) (X : (⟨2, ![R, 128]⟩ : Shape).Idx → EReal)
    (nrm : (⟨2, ![R, 1]⟩ : Shape).Idx → EReal) (bias : (⟨2, ![1, 128]⟩ : Shape).Idx → EReal)
    (onrm : (⟨2, ![R, 1]⟩ : Shape).Idx → EReal) (W : (⟨2, ![128, 128]⟩ : Shape).Idx → EReal)
    (p : Fin R) (q : Fin 128) : step act X nrm bias onrm W (ix2 p q) = stepAt act X nrm bias onrm W p q := rfl

/-- Entry (p, 0) of the last launch over R rows. -/
def headAt {R : ℕ} (X : (⟨2, ![R, 128]⟩ : Shape).Idx → EReal)
    (nrm : (⟨2, ![R, 1]⟩ : Shape).Idx → EReal) (bias : (⟨2, ![1, 128]⟩ : Shape).Idx → EReal)
    (Wl : (⟨2, ![128, 1]⟩ : Shape).Idx → EReal) (bl : (⟨2, ![1, 1]⟩ : Shape).Idx → EReal)
    (p : Fin R) : EReal :=
  (∑ k : Fin 128, (X (ix2 p k) * nrm (ix2 p (0 : Fin 1)) + bias (ix2 (0 : Fin 1) k)) * Wl (ix2 k (0 : Fin 1)))
    + bl (ix2 (0 : Fin 1) (0 : Fin 1))

/-- The last launch over R rows, as an array. -/
def head {R : ℕ} (X : (⟨2, ![R, 128]⟩ : Shape).Idx → EReal)
    (nrm : (⟨2, ![R, 1]⟩ : Shape).Idx → EReal) (bias : (⟨2, ![1, 128]⟩ : Shape).Idx → EReal)
    (Wl : (⟨2, ![128, 1]⟩ : Shape).Idx → EReal) (bl : (⟨2, ![1, 1]⟩ : Shape).Idx → EReal) :
    (⟨2, ![R, 1]⟩ : Shape).Idx → EReal :=
  fun i => headAt X nrm bias Wl bl (i 0)

theorem head_apply {R : ℕ} (X : (⟨2, ![R, 128]⟩ : Shape).Idx → EReal)
    (nrm : (⟨2, ![R, 1]⟩ : Shape).Idx → EReal) (bias : (⟨2, ![1, 128]⟩ : Shape).Idx → EReal)
    (Wl : (⟨2, ![128, 1]⟩ : Shape).Idx → EReal) (bl : (⟨2, ![1, 1]⟩ : Shape).Idx → EReal)
    (p : Fin R) (z : Fin 1) : head X nrm bias Wl bl (ix2 p z) = headAt X nrm bias Wl bl p := rfl

/-- The activation of the five inner layers: the larger of the value and the f32 zero. -/
def relu0 (x : EReal) : EReal := max x (Ideal.ofBits .f32 0x00000000#32)

end Cert.LayerSpec

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibColumn.lean ====
/-
  Two readings of the "keep the reduced axis" column forms. A vector of length `a` cast to an `[a, 1]` column holds,
  at `(i, 0)`, the vector's entry `i`; an `[a, 1]` column broadcast to `[a, b]` holds, at `(i, j)`, the column's entry
  of row `i`. Stated for any element type and any extents, at explicit coordinates.
-/
import Idealize.ShloMosaic.Lib.ValueIdx
import Idealize.ShloMosaic.Lib.Pipeline.Value
import Idealize.ShloMosaic.Lib.ValueLayout

noncomputable section

namespace Cert.LibColumn

open Idealize.ShloMosaic Idealize.ShloMosaic.ValueIdx

/-- An `[a]` array cast to the column `[a, 1]` reads, at `(i, z)`, the operand at `i`, whatever the unit coordinate `z`. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- An `[a, 1]` column broadcast to `[a, b]` reads, at `(i, j)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn

end
-- ==== Proof.LibRow.lean ====
/- A row broadcast down the rows of a matrix, read at an index.  General: any element type, any extents.
   An `[1, b]` row broadcast to `[a, b]` holds at `(i, j)` the row's entry of column `j`; with `b = 1` this is
   the broadcast of a single entry down a column. -/
import Idealize.ShloMosaic.Lib.ValueIdx
import Idealize.ShloMosaic.Lib.Pipeline.Value
import Idealize.ShloMosaic.Lib.ValueLayout

noncomputable section

namespace Cert.LibRow

open Idealize.ShloMosaic Idealize.ShloMosaic.ValueIdx

/-- A `[1, b]` row broadcast to `[a, b]` reads, at `(i, j)`, the row's entry of column `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRow

end
-- ==== Proof.LayerBody.lean ====
/- What one launch's body stores, entry by entry, over the extended reals.  The body loads a 5000-row block of the
   edge sums, the block's two norm columns, the bias row and the weights; it scales, shifts and (in the five inner
   layers) rectifies the block, multiplies by the weights on the matrix unit into a zero accumulator, and scales the
   product by the source norms.  Rounding the operands to bf16 is the identity on the extended reals, a column or a
   row broadcast reads its one entry, and the matrix product into zero is the plain sum over the contracted
   coordinate: so the stored block is the launch formula of the loaded blocks. -/
import proofs.«155896_j79139067396492_1_alg».proof.Proof.Gen.KernelIdeal.Skeleton
import proofs.«155896_j79139067396492_1_alg».proof.Proof.LayerSpec
import proofs.«155896_j79139067396492_1_alg».proof.Proof.LibMatmulIx
import proofs.«155896_j79139067396492_1_alg».proof.Proof.LibColumn
import proofs.«155896_j79139067396492_1_alg».proof.Proof.LibRow
import Idealize.ShloMosaic.Lib.ValueIdx
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.LayerSpec

/-- The first launch (no activation): the stored block is the launch formula with the identity as activation. -/
theorem pay_first_apply (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k0_pay1 (F := Ideal) x0 x1 x2 x3 x4 (ix2 p q) = stepAt id x0 x1 x2 x3 x4 p q := by
  unfold k0_pay1 stepAt
  simp only [shapeCast_self]
  rw [mulf_apply, LibColumn.broadcastTo_a1_ab_apply]
  refine congrArg (· * x3 (ix2 p (0 : Fin 1))) ?_
  refine (LibMatmulIx.matmul_zero_apply dot_S5000x128_S128x128_S5000x128_1_0_0_1_n_n.wf none _ _ p q).trans ?_
  refine Finset.sum_congr rfl fun k _ => ?_
  rw [truncf_apply, truncf_apply, addf_apply, mulf_apply, LibColumn.broadcastTo_a1_ab_apply,
    LibRow.broadcastTo_1b_ab_apply]
  rfl

/-- An inner launch (the previous layer is rectified): the stored block is the launch formula with the rectifier. -/
theorem pay_relu_apply (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k1_pay1 (F := Ideal) x0 x1 x2 x3 x4 (ix2 p q) = stepAt relu0 x0 x1 x2 x3 x4 p q := by
  unfold k1_pay1 stepAt
  simp only [shapeCast_self]
  rw [mulf_apply, LibColumn.broadcastTo_a1_ab_apply]
  refine congrArg (· * x3 (ix2 p (0 : Fin 1))) ?_
  refine (LibMatmulIx.matmul_zero_apply dot_S5000x128_S128x128_S5000x128_1_0_0_1_n_n.wf none _ _ p q).trans ?_
  refine Finset.sum_congr rfl fun k _ => ?_
  rw [truncf_apply, truncf_apply, maximumf_apply, addf_apply, mulf_apply, LibColumn.broadcastTo_a1_ab_apply,
    LibRow.broadcastTo_1b_ab_apply]
  rfl

/-- The four later inner launches run the same body. -/
theorem pay_relu_apply2 (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k2_pay1 (F := Ideal) x0 x1 x2 x3 x4 (ix2 p q) = stepAt relu0 x0 x1 x2 x3 x4 p q :=
  pay_relu_apply x0 x1 x2 x3 x4 p q
theorem pay_relu_apply3 (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k3_pay1 (F := Ideal) x0 x1 x2 x3 x4 (ix2 p q) = stepAt relu0 x0 x1 x2 x3 x4 p q :=
  pay_relu_apply x0 x1 x2 x3 x4 p q
theorem pay_relu_apply4 (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k4_pay1 (F := Ideal) x0 x1 x2 x3 x4 (ix2 p q) = stepAt relu0 x0 x1 x2 x3 x4 p q :=
  pay_relu_apply x0 x1 x2 x3 x4 p q
theorem pay_relu_apply5 (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k5_pay1 (F := Ideal) x0 x1 x2 x3 x4 (ix2 p q) = stepAt relu0 x0 x1 x2 x3 x4 p q :=
  pay_relu_apply x0 x1 x2 x3 x4 p q

/-- The last launch: finish layer six, multiply by the head's weight column, add the head's bias. -/
theorem pay_head_apply (x0 : Vec Ideal S5000x128 .f32) (x1 : Vec Ideal S5000x1 .f32) (x2 : Vec Ideal S1x128 .f32)
    (x3 : Vec Ideal S128x1 .f32) (x4 : Vec Ideal S1x1 .f32) (p : Fin 5000) (z : Fin 1) :
    k6_pay1 (F := Ideal) x0 x1 x2 x3 x4 (ix2 p z) = headAt x0 x1 x2 x3 x4 p := by
  have hz : z = (0 : Fin 1) := Subsingleton.elim _ _
  subst hz
  unfold k6_pay1 headAt
  simp only [shapeCast_self]
  rw [addf_apply, LibRow.broadcastTo_1b_ab_apply]
  refine congrArg (· + x4 (ix2 (0 : Fin 1) (0 : Fin 1))) ?_
  refine (LibMatmulIx.matmul_zero_apply dot_S5000x128_S128x1_S5000x1_1_0_0_1_n_n.wf none _ _ p (0 : Fin 1)).trans ?_
  refine Finset.sum_congr rfl fun k _ => ?_
  rw [truncf_apply, truncf_apply, addf_apply, mulf_apply, LibColumn.broadcastTo_a1_ab_apply,
    LibRow.broadcastTo_1b_ab_apply]

end Cert.KernelIdeal.Body

end
-- ==== Proof.Region0.lean ====
/- The first launch as a function of whole arrays.  Its twenty grid points each take rows 5000·t … 5000·t + 4999 of the
   node features, of the two norm columns and of the output, and the whole bias row and weight matrix.  What point t
   writes back is therefore block t of the launch formula of the whole arrays, and the twenty blocks cover the output:
   after the launch the output array is the launch formula of the arrays the launch found. -/
import proofs.«155896_j79139067396492_1_alg».proof.Proof.Gen.KernelIdeal.Frame
import proofs.«155896_j79139067396492_1_alg».proof.Proof.LayerBody
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem Cert.LayerSpec Cert.KernelIdeal.Body
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the row-blocked windows at block row t, the bias row and the
    weights at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := by
  have hN : cfg0.N = 20 := N_0
  have := t.isLt
  omega

/-- Row p of block t of the edge sums is row 5000·t + p of the array. -/
theorem read0 (c : Dev nD) (t : Fin cfg0.N) (p : Fin 5000) (k : Fin 128) (h : t.val * 5000 + p.val < 100000) :
    iblk0 V c 0 t (ix2 p k) = V c main_arg0 (ix2 ⟨t.val * 5000 + p.val, h⟩ k) := by
  show V c main_arg0 (((cfg0.win 0).blk t).view.emb (ix2 p k)) = _
  refine congrArg (V c main_arg0) ?_
  obtain ⟨e0, e1, -⟩ := index_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row p of block t of the first norm column is row 5000·t + p of the column. -/
theorem read1 (c : Dev nD) (t : Fin cfg0.N) (p : Fin 5000) (z : Fin 1) (h : t.val * 5000 + p.val < 100000) :
    iblk0 V c 1 t (ix2 p z) = V c main_v15 (ix2 ⟨t.val * 5000 + p.val, h⟩ z) := by
  show V c main_v15 (((cfg0.win 1).blk t).view.emb (ix2 p z)) = _
  refine congrArg (V c main_v15) ?_
  obtain ⟨-, -, e0, e1, -⟩ := index_facts t
  funext a; apply Fin.ext
  match a with
  | ⟨0, _⟩ => show win0_1.index t (0 : Fin 2) * 5000 + 1 * p.val = t.val * 5000 + p.val; omega
  | ⟨1, _⟩ => show win0_1.index t (1 : Fin 2) * 1 + 1 * z.val = z.val; omega

/-- The bias row's one block is the row. -/
theorem read2 (c : Dev nD) (t : Fin cfg0.N) (z : Fin 1) (k : Fin 128) :
    iblk0 V c 2 t (ix2 z k) = V c main_v16 (ix2 z k) := by
  show V c main_v16 (((cfg0.win 2).blk t).view.emb (ix2 z k)) = _
  refine congrArg (V c main_v16) ?_
  obtain ⟨-, -, -, -, e0, e1, -⟩ := index_facts t
  funext a; apply Fin.ext
  match a with
  | ⟨0, _⟩ => show win0_2.index t (0 : Fin 2) * 1 + 1 * z.val = z.val; omega
  | ⟨1, _⟩ => show win0_2.index t (1 : Fin 2) * 128 + 1 * k.val = k.val; omega

/-- Row p of block t of the second norm column is row 5000·t + p of the column. -/
theorem read3 (c : Dev nD) (t : Fin cfg0.N) (p : Fin 5000) (z : Fin 1) (h : t.val * 5000 + p.val < 100000) :
    iblk0 V c 3 t (ix2 p z) = V c main_v10 (ix2 ⟨t.val * 5000 + p.val, h⟩ z) := by
  show V c main_v10 (((cfg0.win 3).blk t).view.emb (ix2 p z)) = _
  refine congrArg (V c main_v10) ?_
  obtain ⟨-, -, -, -, -, -, e0, e1, -⟩ := index_facts t
  funext a; apply Fin.ext
  match a with
  | ⟨0, _⟩ => show win0_3.index t (0 : Fin 2) * 5000 + 1 * p.val = t.val * 5000 + p.val; omega
  | ⟨1, _⟩ => show win0_3.index t (1 : Fin 2) * 1 + 1 * z.val = z.val; omega

/-- The weights' one block is the matrix. -/
theorem read4 (c : Dev nD) (t : Fin cfg0.N) (k : Fin 128) (q : Fin 128) :
    iblk0 V c 4 t (ix2 k q) = V c main_arg3 (ix2 k q) := by
  show V c main_arg3 (((cfg0.win 4).blk t).view.emb (ix2 k q)) = _
  refine congrArg (V c main_arg3) ?_
  obtain ⟨-, -, -, -, -, -, -, -, e0, e1, -⟩ := index_facts t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- What point t writes back is block t of the launch formula of the whole arrays. -/
theorem flushed_eq (c : Dev nD) (t : Fin cfg0.N) :
    (dat0 V c).flushed 5 t = ((cfg0.win 5).blk t).view.read (Elt Ideal)
      (step id (V c main_arg0) (V c main_v15) (V c main_v16) (V c main_v10) (V c main_arg3)) := by
  show (cfg0.win 5).cut (grid0.coords t) ((dat0 V c).after 5 t) = _
  rw [after0_5]
  unfold out0_5
  rw [View.canon_unit_zero zero_off]
  simp only [View.ld_unit_zero (S := S5000x128) zero_off, View.ld_unit_zero (S := S5000x1) zero_off,
    View.ld_unit_zero (S := S1x128) zero_off, View.ld_unit_zero (S := S128x128) zero_off]
  funext j
  obtain ⟨p, q, rfl⟩ : ∃ (p : Fin 5000) (q : Fin 128), j = ix2 p q := ⟨j 0, j 1, eq_ix2 j⟩
  have ht := point_lt t
  have hp := p.isLt
  have hrow : t.val * 5000 + p.val < 100000 := by omega
  obtain ⟨-, -, -, -, -, -, -, -, -, -, e0, e1⟩ := index_facts t
  have hemb : ((cfg0.win 5).blk t).view.emb (ix2 p q) = ix2 (⟨t.val * 5000 + p.val, hrow⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = step id (V c main_arg0) (V c main_v15) (V c main_v16) (V c main_v10) (V c main_arg3)
        (((cfg0.win 5).blk t).view.emb (ix2 p q))
  rw [hemb, step_apply]
  refine (pay_first_apply (iblk0 V c 0 t) (iblk0 V c 1 t) (iblk0 V c 2 t) (iblk0 V c 3 t) (iblk0 V c 4 t) p q).trans ?_
  unfold stepAt
  rw [read1 V c t p 0 hrow, read3 V c t p 0 hrow]
  refine congrArg (· * V c main_v10 (ix2 (⟨t.val * 5000 + p.val, hrow⟩ : Fin 100000) (0 : Fin 1))) ?_
  refine Finset.sum_congr rfl fun k _ => ?_
  rw [read0 V c t p k hrow, read2 V c t 0 k, read4 V c t k q]

/-- An index of the output lies in point t's block iff each coordinate lies in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- Row r of the output lies in the block of point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by omega
  obtain ⟨-, -, -, -, -, -, -, -, -, -, e0, e1⟩ := index_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    have e0' : win0_5.index ⟨(i 0).val / 5000, hlt⟩ (0 : Fin 2) = (i 0).val / 5000 := e0
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-- After the launch its output array is the launch formula of the arrays it found. -/
theorem value (c : Dev nD) :
    (dat0 V c).arrAt 5 cfg0.N
      = step id (V c main_arg0) (V c main_v15) (V c main_v16) (V c main_v10) (V c main_arg3) :=
  (dat0 V c).arrAt_eq_of_cover 5 _ (fun t _ => flushed_eq V c t) cover

end Cert.KernelIdeal.Region0

end
-- ==== Proof.Region1.lean ====
/- The second launch as a function of whole arrays.  Its twenty grid points each take rows 5000·t … 5000·t + 4999 of the
   previous layer's edge sums, of the two norm columns and of the output, and the whole bias row and weight matrix.  What point t
   writes back is therefore block t of the launch formula of the whole arrays, and the twenty blocks cover the output:
   after the launch the output array is the launch formula of the arrays the launch found. -/
import proofs.«155896_j79139067396492_1_alg».proof.Proof.Gen.KernelIdeal.Frame
import proofs.«155896_j79139067396492_1_alg».proof.Proof.LayerBody
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem Cert.LayerSpec Cert.KernelIdeal.Body
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the row-blocked windows at block row t, the bias row and the
    weights at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := by
  have hN : cfg1.N = 20 := N_1
  have := t.isLt
  omega

/-- Row p of block t of the edge sums is row 5000·t + p of the array. -/
theorem read0 (c : Dev nD) (t : Fin cfg1.N) (p : Fin 5000) (k : Fin 128) (h : t.val * 5000 + p.val < 100000) :
    iblk1 V c 0 t (ix2 p k) = V c main_v27 (ix2 ⟨t.val * 5000 + p.val, h⟩ k) := by
  show V c main_v27 (((cfg1.win 0).blk t).view.emb (ix2 p k)) = _
  refine congrArg (V c main_v27) ?_
  obtain ⟨e0, e1, -⟩ := index_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row p of block t of the first norm column is row 5000·t + p of the column. -/
theorem read1 (c : Dev nD) (t : Fin cfg1.N) (p : Fin 5000) (z : Fin 1) (h : t.val * 5000 + p.val < 100000) :
    iblk1 V c 1 t (ix2 p z) = V c main_v14 (ix2 ⟨t.val * 5000 + p.val, h⟩ z) := by
  show V c main_v14 (((cfg1.win 1).blk t).view.emb (ix2 p z)) = _
  refine congrArg (V c main_v14) ?_
  obtain ⟨-, -, e0, e1, -⟩ := index_facts t
  funext a; apply Fin.ext
  match a with
  | ⟨0, _⟩ => show win1_1.index t (0 : Fin 2) * 5000 + 1 * p.val = t.val * 5000 + p.val; omega
  | ⟨1, _⟩ => show win1_1.index t (1 : Fin 2) * 1 + 1 * z.val = z.val; omega

/-- The bias row's one block is the row. -/
theorem read2 (c : Dev nD) (t : Fin cfg1.N) (z : Fin 1) (k : Fin 128) :
    iblk1 V c 2 t (ix2 z k) = V c main_v28 (ix2 z k) := by
  show V c main_v28 (((cfg1.win 2).blk t).view.emb (ix2 z k)) = _
  refine congrArg (V c main_v28) ?_
  obtain ⟨-, -, -, -, e0, e1, -⟩ := index_facts t
  funext a; apply Fin.ext
  match a with
  | ⟨0, _⟩ => show win1_2.index t (0 : Fin 2) * 1 + 1 * z.val = z.val; omega
  | ⟨1, _⟩ => show win1_2.index t (1 : Fin 2) * 128 + 1 * k.val = k.val; omega

/-- Row p of block t of the second norm column is row 5000·t + p of the column. -/
theorem read3 (c : Dev nD) (t : Fin cfg1.N) (p : Fin 5000) (z : Fin 1) (h : t.val * 5000 + p.val < 100000) :
    iblk1 V c 3 t (ix2 p z) = V c main_v10 (ix2 ⟨t.val * 5000 + p.val, h⟩ z) := by
  show V c main_v10 (((cfg1.win 3).blk t).view.emb (ix2 p z)) = _
  refine congrArg (V c main_v10) ?_
  obtain ⟨-, -, -, -, -, -, e0, e1, -⟩ := index_facts t
  funext a; apply Fin.ext
  match a with
  | ⟨0, _⟩ => show win1_3.index t (0 : Fin 2) * 5000 + 1 * p.val = t.val * 5000 + p.val; omega
  | ⟨1, _⟩ => show win1_3.index t (1 : Fin 2) * 1 + 1 * z.val = z.val; omega

/-- The weights' one block is the matrix. -/
theorem read4 (c : Dev nD) (t : Fin cfg1.N) (k : Fin 128) (q : Fin 128) :
    iblk1 V c 4 t (ix2 k q) = V c main_arg5 (ix2 k q) := by
  show V c main_arg5 (((cfg1.win 4).blk t).view.emb (ix2 k q)) = _
  refine congrArg (V c main_arg5) ?_
  obtain ⟨-, -, -, -, -, -, -, -, e0, e1, -⟩ := index_facts t
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- What point t writes back is block t of the launch formula of the whole arrays. -/
theorem flushed_eq (c : Dev nD) (t : Fin cfg1.N) :
    (dat1 V c).flushed 5 t = ((cfg1.win 5).blk t).view.read (Elt Ideal)
      (step relu0 (V c main_v27) (V c main_v14) (V c main_v28) (V c main_v10) (V c main_arg5)) := by
  show (cfg1.win 5).cut (grid1.coords t) ((dat1 V c).after 5 t) = _
  rw [after1_5]
  unfold out1_5
  rw [View.canon_unit_zero zero_off]
  simp only [View.ld_unit_zero (S := S5000x128) zero_off, View.ld_unit_zero (S := S5000x1) zero_off,
    View.ld_unit_zero (S := S1x128) zero_off, View.ld_unit_zero (S := S128x128) zero_off]
  funext j
  obtain ⟨p, q, rfl⟩ : ∃ (p : Fin 5000) (q : Fin 128), j = ix2 p q := ⟨j 0, j 1, eq_ix2 j⟩
  have ht := point_lt t
  have hp := p.isLt
  have hrow : t.val * 5000 + p.val < 100000 := by omega
  obtain ⟨-, -, -, -, -, -, -, -, -, -, e0, e1⟩ := index_facts t
  have hemb : ((cfg1.win 5).blk t).view.emb (ix2 p q) = ix2 (⟨t.val * 5000 + p.val, hrow⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = step relu0 (V c main_v27) (V c main_v14) (V c main_v28) (V c main_v10) (V c main_arg5)
        (((cfg1.win 5).blk t).view.emb (ix2 p q))
  rw [hemb, step_apply]
  refine (pay_relu_apply (iblk1 V c 0 t) (iblk1 V c 1 t) (iblk1 V c 2 t) (iblk1 V c 3 t) (iblk1 V c 4 t) p q).trans ?_
  unfold stepAt
  rw [read1 V c t p 0 hrow, read3 V c t p 0 hrow]
  refine congrArg (· * V c main_v10 (ix2 (⟨t.val * 5000 + p.val, hrow⟩ : Fin 100000) (0 : Fin 1))) ?_
  refine Finset.sum_congr rfl fun k _ => ?_
  rw [read0 V c t p k hrow, read2 V c t 0 k, read4 V c t k q]

/-- An index of the output lies in point t's block iff each coordinate lies in the block's range. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v29).slice (win1_5.rect t)).set ↔ _
  rw [View.set_slice_whole, Rect.mem_set_unit]
  exact Iff.rfl

/-- Row r of the output lies in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by omega
  obtain ⟨-, -, -, -, -, -, -, -, -, -, e0, e1⟩ := index_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    have e0' : win1_5.index ⟨(i 0).val / 5000, hlt⟩ (0 : Fin 2) = (i 0).val / 5000 := e0
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    omega

/-- After the launch its output array is the launch formula of the arrays it found. -/
theorem value (c : Dev nD) :
    (dat1 V c).arrAt 5 cfg1.N
      = step relu0 (V c main_v27) (V c main_v14) (V c main_v28) (V c main_v10) (V c main_arg5) :=
  (dat1 V c).arrAt_eq_of_cover 5 _ (fun t _ => flushed_eq V c t) cover

end Cert.KernelIdeal.Region1

end
-- ==== Proof.Region2.lean ====
/- The third launch as a function of whole arrays.  Its twenty grid points each take rows 5000·t … 5000·t + 4999 of the
   previous layer's edge sums, of the two norm columns and of the output, and the whole bias row and weight matrix.  What point t
   writes back is therefore block t of the launch formula of the whole arrays, and the twenty blocks cover the output:
   after the launch the output array is the launch formula of the arrays the launch found. -/
import proofs.«155896_j79139067396492_1_alg».proof.Proof.Gen.KernelIdeal.Frame
import proofs.«155896_j79139067396492_1_alg».proof.Proof.LayerBody
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem Cert.LayerSpec Cert.KernelIdeal.Body
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the row-blocked windows at block row t, the bias row and the
    weights at their one block. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := by
  have hN : cfg2.N = 20 := N_2
  have := t.isLt
  omega

/-- Row p of block t of the edge sums is row 5000·t + p of the array. -/
theorem read0 (c : Dev nD) (t : Fin cfg2.N) (p : Fin 5000) (k : Fin 128) (h : t.val * 5000 + p.val < 100000) :
    iblk2 V c 0 t (ix2 p k) = V c main_v39 (ix2 ⟨t.val * 5000 + p.val, h⟩ k) := by
  show V c main_v39 (((cfg2.win 0).blk t).view.emb (ix2 p k)) = _
  refine congrArg (V c main_v39) ?_
  obtain ⟨e0, e1, -⟩ := index_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- Row p of block t of the first norm column is row 5000·t + p of the column. -/
theorem read1 (c : Dev nD) (t : Fin cfg2.N) (p : Fin 5000) (z : Fin 1) (h : t.val * 5000 + p.val < 100000) :
    iblk2 V c 1 t (ix2 p z) = V c main_v14 (ix2 ⟨t.val * 5000 + p.val, h⟩ z) := by
  show V c main_v14 (((cfg2.win 1).blk t).view.emb (ix2 p z)) = _
  refine congrArg (V c main_v14) ?_
  obtain ⟨-, -, e0, e1, -⟩ := index_facts t
  funext a; apply Fin.ext
  match a with
  | ⟨0, _⟩ => show win2_1.index t (0 : Fin 2) * 5000 + 1 * p.val = t.val * 5000 + p.val; omega
  | ⟨1, _⟩ => show win2_1.index t (1 : Fin 2) * 1 + 1 * z.val = z.val; omega

/-- The bias row's one block is the row. -/
theorem read2 (c : Dev nD) (t : Fin cfg2.N) (z : Fin 1) (k : Fin 128) :
    iblk2 V c 2 t (ix2 z k) = V c main_v40 (ix2 z k) := by
  show V c main_v40 (((cfg2.win 2).blk t).view.emb (ix2 z k)) = _
  refine congrArg (V c main_v40) ?_
  obtain ⟨-, -, -, -, e0, e1, -⟩ := index_facts t
  funext a; apply Fin.ext
  match a with
  | ⟨0, _⟩ => show win2_2.index t (0 : Fin 2) * 1 + 1 * z.val = z.val; omega
  | ⟨1, _⟩ => show win2_2.index t (1 : Fin 2) * 128 + 1 * k.val = k.val; omega

/-- Row p of block t of the second norm column is row 5000·t + p of the column. -/
theorem read3 (c : Dev nD) (t : Fin cfg2.N) (p : Fin 5000) (z : Fin 1) (h : t.val * 5000 + p.val < 100000) :
    iblk2 V c 3 t (ix2 p z) = V c main_v10 (ix2 ⟨t.val * 5000 + p.val, h⟩ z) := by
  show V c main_v10 (((cfg2.win 3).blk t).view.emb (ix2 p z)) = _
  refine congrArg (V c main_v10) ?_
  obtain ⟨-, -, -, -, -, -, e0, e1, -⟩ := index_facts t
  funext a; apply Fin.ext
  match a with
  | ⟨0, _⟩ => show win2_3.index t (0 : Fin 2) * 5000 + 1 * p.val = t.val * 5000 + p.val; omega
  | ⟨1, _⟩ => show win2_3.index t (1 : Fin 2) * 1 + 1 * z.val = z.val; omega

/-- The weights' one block is the matrix. -/
theorem read4 (c : Dev nD) (t : Fin cfg2.N) (k : Fin 128) (q : Fin 128) :
    iblk2 V c 4 t (ix2 k q) = V c main_arg7 (ix2 k q) := by
  show V c main_arg7 (((cfg2.win 4).blk t).view.emb (ix2 k q)) = _
  refine congrArg (V c main_arg7) ?_
  obtain ⟨-, -, -, -, -, -, -, -, e0, e1, -⟩ := index_facts t
  funext a; apply Fin.ext
  match a with
  | ⟨0, _⟩ => show win2_4.index t (0 : Fin 2) * 128 + 1 * k.val = k.val; omega
  | ⟨1, _⟩ => show win2_4.index t (1 : Fin 2) * 128 + 1 * q.val = q.val; omega

/-- What point t writes back is block t of the launch formula of the whole arrays. -/
theorem flushed_eq (c : Dev nD) (t : Fin cfg2.N) :
    (dat2 V c).flushed 5 t = ((cfg2.win 5).blk t).view.read (Elt Ideal)
      (step relu0 (V c main_v39) (V c main_v14) (V c main_v40) (V c main_v10) (V c main_arg7)) := by
  show (cfg2.win 5).cut (grid2.coords t) ((dat2 V c).after 5 t) = _
  rw [after2_5]
  unfold out2_5
  rw [View.canon_unit_zero zero_off]
  simp only [View.ld_unit_zero (S := S5000x128) zero_off, View.ld_unit_zero (S := S5000x1) zero_off,
    View.ld_unit_zero (S := S1x128) zero_off, View.ld_unit_zero (S := S128x128) zero_off]
  funext j
  obtain ⟨p, q, rfl⟩ : ∃ (p : Fin 5000) (q : Fin 128), j = ix2 p q := ⟨j 0, j 1, eq_ix2 j⟩
  have ht := point_lt t
  have hp := p.isLt
  have hrow : t.val * 5000 + p.val < 100000 := by omega
  obtain ⟨-, -, -, -, -, -, -, -, -, -, e0, e1⟩ := index_facts t
  have hemb : ((cfg2.win 5).blk t).view.emb (ix2 p q) = ix2 (⟨t.val * 5000 + p.val, hrow⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  show k2_pay1 (iblk2 V c 0 t) (iblk2 V c 1 t) (iblk2 V c 2 t) (iblk2 V c 3 t) (iblk2 V c 4 t) (ix2 p q)
    = step relu0 (V c main_v39) (V c main_v14) (V c main_v40) (V c main_v10) (V c main_arg7)
        (((cfg2.win 5).blk t).view.emb (ix2 p q))
  rw [hemb, step_apply]
  refine (pay_relu_apply2 (iblk2 V c 0 t) (iblk2 V c 1 t) (iblk2 V c 2 t) (iblk2 V c 3 t) (iblk2 V c 4 t) p q).trans ?_
  unfold stepAt
  rw [read1 V c t p 0 hrow, read3 V c t p 0 hrow]
  refine congrArg (· * V c main_v10 (ix2 (⟨t.val * 5000 + p.val, hrow⟩ : Fin 100000) (0 : Fin 1))) ?_
  refine Finset.sum_congr rfl fun k _ => ?_
  rw [read0 V c t p k hrow, read2 V c t 0 k, read4 V c t k q]

/-- An index of the output lies in point t's block iff each coordinate lies in the block's range. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v41).slice (win2_5.rect t)).set ↔ _
  rw [View.set_slice_whole, Rect.mem_set_unit]
  exact Iff.rfl

/-- Row r of the output lies in the block of point r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have hlt : (i 0).val / 5000 < cfg2.N := by omega
  obtain ⟨-, -, -, -, -, -, -, -, -, -, e0, e1⟩ := index_facts ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    have e0' : win2_5.index ⟨(i 0).val / 5000, hlt⟩ (0 : Fin 2) = (i 0).val / 5000 := e0
    omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    omega

/-- After the launch its output array is the launch formula of the arrays it found. -/
theorem value (c : Dev nD) :
    (dat2 V c).arrAt 5 cfg2.N
      = step relu0 (V c main_v39) (V c main_v14) (V c main_v40) (V c main_v10) (V c main_arg7) :=
  (dat2 V c).arrAt_eq_of_cover 5 _ (fun t _ => flushed_eq V c t) cover

end Cert.KernelIdeal.Region2

end
-- ==== Proof.Region3.lean ====
/- The fourth launch as a function of whole arrays.  Its twenty grid points each take rows 5000·t … 5000·t + 4999 of the
   previous layer's edge sums, of the two norm columns and of the output, and the whole bias row and weight matrix.  What point t
   writes back is therefore block t of the launch formula of the whole arrays, and the twenty blocks cover the output:
   after the launch the output array is the launch formula of the arrays the launch found. -/
import proofs.«155896_j79139067396492_1_alg».proof.Proof.Gen.KernelIdeal.Frame
import proofs.«155896_j79139067396492_1_alg».proof.Proof.LayerBody
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.SL.Sem Cert.LayerSpec Cert.KernelIdeal.Body
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the row-blocked windows at block row t, the bias row and the
    weights at their one block. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem point_lt (t : Fin cfg3.N) : t.val < 20 := by
  have hN : cfg3.N = 20 := N_3
  have := t.isLt
  omega

/-- Row p of block t of the edge sums is row 5000·t + p of the array. -/
theorem read0 (c : Dev nD) (t : Fin cfg3.N) (p : Fin 5000) (k : Fin 128) (h : t.val * 5000 + p.val < 100000) :
    iblk3 V c 0 t (ix2 p k) = V c main_v51 (ix2 ⟨t.val * 5000 + p.val, h⟩ k) := by
  show V c main_v51 (((cfg3.win 0).blk t).view.emb (ix2 p k)) = _
  refine congrArg (V c main_v51) ?_
  obtain ⟨e0, e1, -⟩ := index_facts t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

/-- Row p of block t of the first norm column is row 5000·t + p of the column. -/
theorem read1 (c : Dev nD) (t : Fin cfg3.N) (p : Fin 5000) (z : Fin 1) (h : t.val * 5000 + p.val < 100000) :
    iblk3 V c 1 t (ix2 p z) = V c main_v14 (ix2 ⟨t.val * 5000 + p.val, h⟩ z) := by
  show V c main_v14 (((cfg3.win 1).blk t).view.emb (ix2 p z)) = _
  refine congrArg (V c main_v14) ?_
  obtain ⟨-, -, e0, e1, -⟩ := index_facts t
  funext a; apply Fin.ext
  match a with
  | ⟨0, _⟩ => show win3_1.index t (0 : Fin 2) * 5000 + 1 * p.val = t.val * 5000 + p.val; omega
  | ⟨1, _⟩ => show win3_1.index t (1 : Fin 2) * 1 + 1 * z.val = z.val; omega

/-- The bias row's one block is the row. -/
theorem read2 (c : Dev nD) (t : Fin cfg3.N) (z : Fin 1) (k : Fin 128) :
    iblk3 V c 2 t (ix2 z k) = V c main_v52 (ix2 z k) := by
  show V c main_v52 (((cfg3.win 2).blk t).view.emb (ix2 z k)) = _
  refine congrArg (V c main_v52) ?_
  obtain ⟨-, -, -, -, e0, e1, -⟩ := index_facts t
  funext a; apply Fin.ext
  match a with
  | ⟨0, _⟩ => show win3_2.index t (0 : Fin 2) * 1 + 1 * z.val = z.val; omega
  | ⟨1, _⟩ => show win3_2.index t (1 : Fin 2) * 128 + 1 * k.val = k.val; omega

/-- Row p of block t of the second norm column is row 5000·t + p of the column. -/
theorem read3 (c : Dev nD) (t : Fin cfg3.N) (p : Fin 5000) (z : Fin 1) (h : t.val * 5000 + p.val < 100000) :
    iblk3 V c 3 t (ix2 p z) = V c main_v10 (ix2 ⟨t.val * 5000 + p.val, h⟩ z) := by
  show V c main_v10 (((cfg3.win 3).blk t).view.emb (ix2 p z)) = _
  refine congrArg (V c main_v10) ?_
  obtain ⟨-, -, -, -, -, -, e0, e1, -⟩ := index_facts t
  funext a; apply Fin.ext
  match a with
  | ⟨0, _⟩ => show win3_3.index t (0 : Fin 2) * 5000 + 1 * p.val = t.val * 5000 + p.val; omega
  | ⟨1, _⟩ => show win3_3.index t (1 : Fin 2) * 1 + 1 * z.val = z.val; omega

/-- The weights' one block is the matrix. -/
theorem read4 (c : Dev nD) (t : Fin cfg3.N) (k : Fin 128) (q : Fin 128) :
    iblk3 V c 4 t (ix2 k q) = V c main_arg9 (ix2 k q) := by
  show V c main_arg9 (((cfg3.win 4).blk t).view.emb (ix2 k q)) = _
  refine congrArg (V c main_arg9) ?_
  obtain ⟨-, -, -, -, -, -, -, -, e0, e1, -⟩ := index_facts t
  funext a; apply Fin.ext
  match a with
  | ⟨0, _⟩ => show win3_4.index t (0 : Fin 2) * 128 + 1 * k.val = k.val; omega
  | ⟨1, _⟩ => show win3_4.index t (1 : Fin 2) * 128 + 1 * q.val = q.val; omega

/-- What point t writes back is block t of the launch formula of the whole arrays. -/
theorem flushed_eq (c : Dev nD) (t : Fin cfg3.N) :
    (dat3 V c).flushed 5 t = ((cfg3.win 5).blk t).view.read (Elt Ideal)
      (step relu0 (V c main_v51) (V c main_v14) (V c main_v52) (V c main_v10) (V c main_arg9)) := by
  show (cfg3.win 5).cut (grid3.coords t) ((dat3 V c).after 5 t) = _
  rw [after3_5]
  unfold out3_5
  rw [View.canon_unit_zero zero_off]
  simp only [View.ld_unit_zero (S := S5000x128) zero_off, View.ld_unit_zero (S := S5000x1) zero_off,
    View.ld_unit_zero (S := S1x128) zero_off, View.ld_unit_zero (S := S128x128) zero_off]
  funext j
  obtain ⟨p, q, rfl⟩ : ∃ (p : Fin 5000) (q : Fin 128), j = ix2 p q := ⟨j 0, j 1, eq_ix2 j⟩
  have ht := point_lt t
  have hp := p.isLt
  have hrow : t.val * 5000 + p.val < 100000 := by omega
  obtain ⟨-, -, -, -, -, -, -, -, -, -, e0, e1⟩ := index_facts t
  have hemb : ((cfg3.win 5).blk t).view.emb (ix2 p q) = ix2 (⟨t.val * 5000 + p.val, hrow⟩ : Fin 100000) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  show k3_pay1 (iblk3 V c 0 t) (iblk3 V c 1 t) (iblk3 V c 2 t) (iblk3 V c 3 t) (iblk3 V c 4 t) (ix2 p q)
    = step relu0 (V c main_v51) (V c main_v14) (V c main_v52) (V c main_v10) (V c main_arg9)
        (((cfg3.win 5).blk t).view.emb (ix2 p q))
  rw [hemb, step_apply]
  refine (pay_relu_apply3 (iblk3 V c 0 t) (iblk3 V c 1 t) (iblk3 V c 2 t) (iblk3 V c 3 t) (iblk3 V c 4 t) p q).trans ?_
  unfold stepAt
  rw [read1 V c t p 0 hrow, read3 V c t p 0 hrow]
  refine congrArg (· * V c main_v10 (ix2 (⟨t.val * 5000 + p.val, hrow⟩ : Fin 100000) (0 : Fin 1))) ?_
  refine Finset.sum_congr rfl fun k _ => ?_
  rw [read0 V c t p k hrow, read2 V c t 0 k, read4 V c t k q]

/-- An index of the output lies in point t's block iff each coordinate lies in the block's range. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v53).slice (win3_5.rect t)).set ↔ _
  rw [View.set_slice_whole, Rect.mem_set_unit]
  exact Iff.rfl

/-- Row r of the output lies in the block of point r / 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have hlt : (i 0).val / 5000 < cfg3.N := by omega
  obtain ⟨-, -, -, -, -, -, -, -, -, -, e0, e1⟩ := index_facts ⟨(i 0).val / 5000, hlt⟩
  refine ⟨⟨(i 0).val / 5000, hlt⟩, flush3_5 _, ?_⟩
  rw [mem_blk]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    have e0' : win3_5.index ⟨(i 0).val / 5000, hlt⟩ (0 : Fin 2) = (i 0).val / 5000 := e0
    omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    omega

/-- After the launch its output array is the launch formula of the arrays it found. -/
theorem value (c : Dev nD) :
    (dat3 V c).arrAt 5 cfg3.N
      = step relu0 (V c main_v51) (V c main_v14) (V c main_v52) (V c main_v10) (V c main_arg9) :=
  (dat3 V c).arrAt_eq_of_cover 5 _ (fun t _ => flushed_eq V c t) cover

end Cert.KernelIdeal.Region3

end
-- ==== Proof.Region4.lean ====
/- The fifth launch as a function of whole arrays.  Its twenty grid points each take rows 5000·t … 5000·t + 4999 of the
   previous layer's edge sums, of the two norm columns and of the output, and the whole bias row and weight matrix.  What point t
   writes back is therefore block t of the launch formula of the whole arrays, and the twenty blocks cover the output:
   after the launch the output array is the launch formula of the arrays the launch found. -/
import proofs.«155896_j79139067396492_1_alg».proof.Proof.Gen.KernelIdeal.Frame
import proofs.«155896_j79139067396492_1_alg».proof.Proof.LayerBody
import Idealize.ShloMosaic.Lib.Pipeline.Value
import Idealize.ShloMosaic.Lib.ValueIdx

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx
open Idealize.SL.Sem Cert.LayerSpec Cert.KernelIdeal.Body
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the row-blocked windows at block row t, the bias row and the
    weights at their one block. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem point_lt (t : Fin cfg4.N) : t.val < 20 := by
  have hN : cfg4.N = 20 := N_4
  have := t.isLt
  omega

/-- Row p of block t of the edge sums is row 5000·t + p of the array. -/
theorem read0 (c : Dev nD) (t : Fin cfg4.N) (p : Fin 5000) (k : Fin 128) (h : t.val * 5000 + p.val < 100000) :
    iblk4 V c 0 t (ix2 p k) = V c main_v63 (ix2 ⟨t.val * 5000 + p.val, h⟩ k) := by
  show V c main_v63 (((cfg4.win 0).blk t).view.emb (ix2 p k)) = _
  refine congrArg (V c main_v63) ?_
  obtain ⟨e0, e1, -⟩ := index_facts t
  funext a; apply Fin.ext
  match a with
  | ⟨0, _⟩ => show win4_0.index t (0 : Fin 2) * 5000 + 1 * p.val = t.val * 5000 + p.val; omega
  | ⟨1, _⟩ => show win4_0.index t (1 : Fin 2) * 128 + 1 * k.val = k.val; omega

/-- Row p of block t of the first norm column is row 5000·t + p of the column. -/
theorem read1 (c : Dev nD) (t : Fin cfg4.N) (p : Fin 5000) (z : Fin 1) (h : t.val * 5000 + p.val < 100000) :
    iblk4 V c 1 t (ix2 p z) = V c main_v14 (ix2 ⟨t.val * 5000 + p.val, h⟩ z) := by
  show V c main_v14 (((cfg4.win 1).blk t).view.emb (ix2 p z)) = _
  refine congrArg (V c main_v14) ?_
  obtain ⟨-, -, e0, e1, -⟩ := index_facts t
  funext a; apply Fin.ext
  match a with
  | ⟨0, _⟩ => show win4_1.index t (0 : Fin 2) * 5000 + 1 * p.val = t.val * 5000 + p.val; omega
  | ⟨1, _⟩ => show win4_1.index t (1 : Fin 2) * 1 + 1 * z.val = z.val; omega

/-- The bias row's one block is the row. -/
theorem read2 (c : Dev nD) (t : Fin cfg4.N) (z : Fin 1) (k : Fin 128) :
    iblk4 V c 2 t (ix2 z k) = V c main_v64 (ix2 z k) := by
  show V c main_v64 (((cfg4.win 2).blk t).view.emb (ix2 z k)) = _
  refine congrArg (V c main_v64) ?_
  obtain ⟨-, -, -, -, e0, e1, -⟩ := index_facts t
  funext a; apply Fin.ext
  match a with
  | ⟨0, _⟩ => show win4_2.index t (0 : Fin 2) * 1 + 1 * z.val = z.val; omega
  | ⟨1, _⟩ => show win4_2.index t (1 : Fin 2) * 128 + 1 * k.val = k.val; omega

/-- Row p of block t of the second norm column is row 5000·t + p of the column. -/
theorem read3 (c : Dev nD) (t : Fin cfg4.N) (p : Fin 5000) (z : Fin 1) (h : t.val * 5000 + p.val < 100000) :
    iblk4 V c 3 t (ix2 p z) = V c main_v10 (ix2 ⟨t.val * 5000 + p.val, h⟩ z) := by
  show V c main_v10 (((cfg4.win 3).blk t).view.emb (ix2 p z)) = _
  refine congrArg (V c main_v10) ?_
  obtain ⟨-, -, -, -, -, -, e0, e1, -⟩ := index_facts t
  funext a; apply Fin.ext
  match a with
  | ⟨0, _⟩ => show win4_3.index t (0 : Fin 2) * 5000 + 1 * p.val = t.val * 5000 + p.val; omega
  | ⟨1, _⟩ => show win4_3.index t (1 : Fin 2) * 1 + 1 * z.val = z.val; omega

/-- The weights' one block is the matrix. -/
theorem read4 (c : Dev nD) (t : Fin cfg4.N) (k : Fin 128) (q : Fin 128) :
    iblk4 V c 4 t (ix2 k q) = V c main_arg11 (ix2 k q) := by
  show V c main_arg11 (((cfg4.win 4).blk t).view.emb (ix2 k q)) = _
  refine congrArg (V c main_arg11) ?_
  obtain ⟨-, -, -, -, -, -, -, -, e0, e1, -⟩ := index_facts t
  funext a; apply Fin.ext
  match a with
  | ⟨0, _⟩ => show win4_4.index t (0 : Fin 2) * 128 + 1 * k.val = k.val; omega
  | ⟨1, _⟩ => show win4_4.index t (1 : Fin 2) * 128 + 1 * q.val = q.val; omega

/-- What point t writes back is block t of the launch formula of the whole arrays. -/
theorem flushed_eq (c : Dev nD) (t : Fin cfg4.N) :
    (dat4 V c).flushed 5 t = ((cfg4.win 5).blk t).view.read (Elt Ideal)
      (step relu0 (V c main_v63) (V c main_v14) (V c main_v64) (V c main_v10) (V c main_arg11)) := by
  show (cfg4.win 5).cut (grid4.coords t) ((dat4 V c).after 5 t) = _
  rw [after4_5]
  unfold out4_5
  rw [View.canon_unit_zero zero_off]
  simp only [View.ld_unit_zero (S := S5000x128) zero_off, View.ld_unit_zero (S := S5000x1) zero_off,
    View.ld_unit_zero (S := S1x128) zero_off, View.ld_unit_zero (S := S128x128) zero_off]
  funext j
  obtain ⟨p, q, rfl⟩ : ∃ (p : Fin 5000) (q : Fin 128), j = ix2 p q := ⟨j 0, j 1, eq_ix2 j⟩
  have ht := point_lt t
  have hp := p.isLt
  have hrow : t.val * 5000 + p.val < 100000 := by omega
  obtain ⟨-, -, -, -, -, -, -, -, -, -, e0, e1⟩ := index_facts t
  have hemb : ((cfg4.win 5).blk t).view.emb (ix2 p q) = ix2 (⟨t.val * 5000 + p.val, hrow⟩ : Fin 100000) q := by
    funext a; apply Fin.ext
    match a with
    | ⟨0, _⟩ => show win4_5.index t (0 : Fin 2) * 5000 + 1 * p.val = t.val * 5000 + p.val; omega
    | ⟨1, _⟩ => show win4_5.index t (1 : Fin 2) * 128 + 1 * q.val = q.val; omega
  show k4_pay1 (iblk4 V c 0 t) (iblk4 V c 1 t) (iblk4 V c 2 t) (iblk4 V c 3 t) (iblk4 V c 4 t) (ix2 p q)
    = step relu0 (V c main_v63) (V c main_v14) (V c main_v64) (V c main_v10) (V c main_arg11)
        (((cfg4.win 5).blk t).view.emb (ix2 p q))
  rw [hemb, step_apply]
  refine (pay_relu_apply4 (iblk4 V c 0 t) (iblk4 V c 1 t) (iblk4 V c 2 t) (iblk4 V c 3 t) (iblk4 V c 4 t) p q).trans ?_
  unfold stepAt
  rw [read1 V c t p 0 hrow, read3 V c t p 0 hrow]
  refine congrArg (· * V c main_v10 (ix2 (⟨t.val * 5000 + p.val, hrow⟩ : Fin 100000) (0 : Fin 1))) ?_
  refine Finset.sum_congr rfl fun k _ => ?_
  rw [read0 V c t p k hrow, read2 V c t 0 k, read4 V c t k q]

/-- An index of the output lies in point t's block iff each coordinate lies in the block's range. -/
theorem mem_blk (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v65).slice (win4_5.rect t)).set ↔ _
  rw [View.set_slice_whole, Rect.mem_set_unit]
  exact Iff.rfl

/-- Row r of the output lies in the block of point r / 5000. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  have hlt : (i 0).val / 5000 < cfg4.N := by omega
  obtain ⟨-, -, -, -, -, -, -, -, -, -, e0, e1⟩ := index_facts ⟨(i 0).val / 5000, hlt⟩
  refine ⟨⟨(i 0).val / 5000, hlt⟩, flush4_5 _, ?_⟩
  rw [mem_blk]
  intro a
  match a with
  | ⟨0, _⟩ =>
    show win4_5.index ⟨(i 0).val / 5000, hlt⟩ (0 : Fin 2) * 5000 ≤ (i 0).val
      ∧ (i 0).val < win4_5.index ⟨(i 0).val / 5000, hlt⟩ (0 : Fin 2) * 5000 + 5000
    have e0' : win4_5.index ⟨(i 0).val / 5000, hlt⟩ (0 : Fin 2) = (i 0).val / 5000 := e0
    omega
  | ⟨1, _⟩ =>
    show win4_5.index ⟨(i 0).val / 5000, hlt⟩ (1 : Fin 2) * 128 ≤ (i 1).val
      ∧ (i 1).val < win4_5.index ⟨(i 0).val / 5000, hlt⟩ (1 : Fin 2) * 128 + 128
    omega

/-- After the launch its output array is the launch formula of the arrays it found. -/
theorem value (c : Dev nD) :
    (dat4 V c).arrAt 5 cfg4.N
      = step relu0 (V c main_v63) (V c main_v14) (V c main_v64) (V c main_v10) (V c main_arg11) :=
  (dat4 V c).arrAt_eq_of_cover 5 _ (fun t _ => flushed_eq V c t) cover

end Cert.KernelIdeal.Region4

end
-- ==== Proof.Region5.lean ====
/- The sixth launch as a function of whole arrays.  Its twenty grid points each take rows 5000·t … 5000·t + 4999 of the
   previous layer's edge sums, of the two norm columns and of the output, and the whole bias row and weight matrix.  What point t
   writes back is therefore block t of the launch formula of the whole arrays, and the twenty blocks cover the output:
   after the launch the output array is the launch formula of the arrays the launch found. -/
import proofs.«155896_j79139067396492_1_alg».proof.Proof.Gen.KernelIdeal.Frame
import proofs.«155896_j79139067396492_1_alg».proof.Proof.LayerBody
import Idealize.ShloMosaic.Lib.Pipeline.Value
import Idealize.ShloMosaic.Lib.ValueIdx

set_option maxRecDepth 16384

noncomputable section

open scoped BigOperators

namespace Cert.KernelIdeal.Region5

open Cert.KernelIdeal Cert.KernelIdeal.Gen Idealize.ShloMosaic Idealize.ShloMosaic.TcCoe Idealize.ShloMosaic.ValueIdx
open Idealize.SL.Sem Cert.LayerSpec Cert.KernelIdeal.Body
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the row-blocked windows at block row t, the bias row and the
    weights at their one block. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem point_lt (t : Fin cfg5.N) : t.val < 20 := by
  have hN : cfg5.N = 20 := N_5
  have := t.isLt
  omega

/-- Row p of block t of the edge sums is row 5000·t + p of the array. -/
theorem read0 (c : Dev nD) (t : Fin cfg5.N) (p : Fin 5000) (k : Fin 128) (h : t.val * 5000 + p.val < 100000) :
    iblk5 V c 0 t (ix2 p k) = V c main_v75 (ix2 ⟨t.val * 5000 + p.val, h⟩ k) := by
  show V c main_v75 (((cfg5.win 0).blk t).view.emb (ix2 p k)) = _
  refine congrArg (V c main_v75) ?_
  obtain ⟨e0, e1, -⟩ := index_facts t
  funext a; apply Fin.ext
  match a with
  | ⟨0, _⟩ => show win5_0.index t (0 : Fin 2) * 5000 + 1 * p.val = t.val * 5000 + p.val; omega
  | ⟨1, _⟩ => show win5_0.index t (1 : Fin 2) * 128 + 1 * k.val = k.val; omega

/-- Row p of block t of the first norm column is row 5000·t + p of the column. -/
theorem read1 (c : Dev nD) (t : Fin cfg5.N) (p : Fin 5000) (z : Fin 1) (h : t.val * 5000 + p.val < 100000) :
    iblk5 V c 1 t (ix2 p z) = V c main_v14 (ix2 ⟨t.val * 5000 + p.val, h⟩ z) := by
  show V c main_v14 (((cfg5.win 1).blk t).view.emb (ix2 p z)) = _
  refine congrArg (V c main_v14) ?_
  obtain ⟨-, -, e0, e1, -⟩ := index_facts t
  funext a; apply Fin.ext
  match a with
  | ⟨0, _⟩ => show win5_1.index t (0 : Fin 2) * 5000 + 1 * p.val = t.val * 5000 + p.val; omega
  | ⟨1, _⟩ => show win5_1.index t (1 : Fin 2) * 1 + 1 * z.val = z.val; omega

/-- The bias row's one block is the row. -/
theorem read2 (c : Dev nD) (t : Fin cfg5.N) (z : Fin 1) (k : Fin 128) :
    iblk5 V c 2 t (ix2 z k) = V c main_v76 (ix2 z k) := by
  show V c main_v76 (((cfg5.win 2).blk t).view.emb (ix2 z k)) = _
  refine congrArg (V c main_v76) ?_
  obtain ⟨-, -, -, -, e0, e1, -⟩ := index_facts t
  funext a; apply Fin.ext
  match a with
  | ⟨0, _⟩ => show win5_2.index t (0 : Fin 2) * 1 + 1 * z.val = z.val; omega
  | ⟨1, _⟩ => show win5_2.index t (1 : Fin 2) * 128 + 1 * k.val = k.val; omega

/-- Row p of block t of the second norm column is row 5000·t + p of the column. -/
theorem read3 (c : Dev nD) (t : Fin cfg5.N) (p : Fin 5000) (z : Fin 1) (h : t.val * 5000 + p.val < 100000) :
    iblk5 V c 3 t (ix2 p z) = V c main_v10 (ix2 ⟨t.val * 5000 + p.val, h⟩ z) := by
  show V c main_v10 (((cfg5.win 3).blk t).view.emb (ix2 p z)) = _
  refine congrArg (V c main_v10) ?_
  obtain ⟨-, -, -, -, -, -, e0, e1, -⟩ := index_facts t
  funext a; apply Fin.ext
  match a with
  | ⟨0, _⟩ => show win5_3.index t (0 : Fin 2) * 5000 + 1 * p.val = t.val * 5000 + p.val; omega
  | ⟨1, _⟩ => show win5_3.index t (1 : Fin 2) * 1 + 1 * z.val = z.val; omega

/-- The weights' one block is the matrix. -/
theorem read4 (c : Dev nD) (t : Fin cfg5.N) (k : Fin 128) (q : Fin 128) :
    iblk5 V c 4 t (ix2 k q) = V c main_arg13 (ix2 k q) := by
  show V c main_arg13 (((cfg5.win 4).blk t).view.emb (ix2 k q)) = _
  refine congrArg (V c main_arg13) ?_
  obtain ⟨-, -, -, -, -, -, -, -, e0, e1, -⟩ := index_facts t
  funext a; apply Fin.ext
  match a with
  | ⟨0, _⟩ => show win5_4.index t (0 : Fin 2) * 128 + 1 * k.val = k.val; omega
  | ⟨1, _⟩ => show win5_4.index t (1 : Fin 2) * 128 + 1 * q.val = q.val; omega

/-- What point t writes back is block t of the launch formula of the whole arrays. -/
theorem flushed_eq (c : Dev nD) (t : Fin cfg5.N) :
    (dat5 V c).flushed 5 t = ((cfg5.win 5).blk t).view.read (Elt Ideal)
      (step relu0 (V c main_v75) (V c main_v14) (V c main_v76) (V c main_v10) (V c main_arg13)) := by
  show (cfg5.win 5).cut (grid5.coords t) ((dat5 V c).after 5 t) = _
  rw [after5_5]
  unfold out5_5
  rw [View.canon_unit_zero zero_off]
  simp only [View.ld_unit_zero (S := S5000x128) zero_off, View.ld_unit_zero (S := S5000x1) zero_off,
    View.ld_unit_zero (S := S1x128) zero_off, View.ld_unit_zero (S := S128x128) zero_off]
  funext j
  obtain ⟨p, q, rfl⟩ : ∃ (p : Fin 5000) (q : Fin 128), j = ix2 p q := ⟨j 0, j 1, eq_ix2 j⟩
  have ht := point_lt t
  have hp := p.isLt
  have hrow : t.val * 5000 + p.val < 100000 := by omega
  obtain ⟨-, -, -, -, -, -, -, -, -, -, e0, e1⟩ := index_facts t
  have hemb : ((cfg5.win 5).blk t).view.emb (ix2 p q) = ix2 (⟨t.val * 5000 + p.val, hrow⟩ : Fin 100000) q := by
    funext a; apply Fin.ext
    match a with
    | ⟨0, _⟩ => show win5_5.index t (0 : Fin 2) * 5000 + 1 * p.val = t.val * 5000 + p.val; omega
    | ⟨1, _⟩ => show win5_5.index t (1 : Fin 2) * 128 + 1 * q.val = q.val; omega
  show k5_pay1 (iblk5 V c 0 t) (iblk5 V c 1 t) (iblk5 V c 2 t) (iblk5 V c 3 t) (iblk5 V c 4 t) (ix2 p q)
    = step relu0 (V c main_v75) (V c main_v14) (V c main_v76) (V c main_v10) (V c main_arg13)
        (((cfg5.win 5).blk t).view.emb (ix2 p q))
  rw [hemb, step_apply]
  refine (pay_relu_apply5 (iblk5 V c 0 t) (iblk5 V c 1 t) (iblk5 V c 2 t) (iblk5 V c 3 t) (iblk5 V c 4 t) p q).trans ?_
  unfold stepAt
  rw [read1 V c t p 0 hrow, read3 V c t p 0 hrow]
  refine congrArg (· * V c main_v10 (ix2 (⟨t.val * 5000 + p.val, hrow⟩ : Fin 100000) (0 : Fin 1))) ?_
  refine Finset.sum_congr rfl fun k _ => ?_
  rw [read0 V c t p k hrow, read2 V c t 0 k, read4 V c t k q]

/-- An index of the output lies in point t's block iff each coordinate lies in the block's range. -/
theorem mem_blk (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v77).slice (win5_5.rect t)).set ↔ _
  rw [View.set_slice_whole, Rect.mem_set_unit]
  exact Iff.rfl

/-- Row r of the output lies in the block of point r / 5000. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have hlt : (i 0).val / 5000 < cfg5.N := by omega
  obtain ⟨-, -, -, -, -, -, -, -, -, -, e0, e1⟩ := index_facts ⟨(i 0).val / 5000, hlt⟩
  refine ⟨⟨(i 0).val / 5000, hlt⟩, flush5_5 _, ?_⟩
  rw [mem_blk]
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    have e0' : win5_5.index ⟨(i 0).val / 5000, hlt⟩ (0 : Fin 2) = (i 0).val / 5000 := e0
    omega
  | ⟨1, _⟩ =>
    show win5_5.index ⟨(i 0).val / 5000, hlt⟩ (1 : Fin 2) * 128 ≤ (i 1).val
      ∧ (i 1).val < win5_5.index ⟨(i 0).val / 5000, hlt⟩ (1 : Fin 2) * 128 + 128
    omega

/-- After the launch its output array is the launch formula of the arrays it found. -/
theorem value (c : Dev nD) :
    (dat5 V c).arrAt 5 cfg5.N
      = step relu0 (V c main_v75) (V c main_v14) (V c main_v76) (V c main_v10) (V c main_arg13) :=
  (dat5 V c).arrAt_eq_of_cover 5 _ (fun t _ => flushed_eq V c t) cover

end Cert.KernelIdeal.Region5

end
-- ==== Proof.Region6.lean ====
/- The last launch as a function of whole arrays.  Its twenty grid points each take rows 5000·t … 5000·t + 4999 of the
   sixth layer's edge sums, of the target-norm column and of the output column, and the whole bias row, head weight
   column and head bias.  What point t writes back is block t of the head formula of the whole arrays, and the twenty
   blocks cover the output: after the launch the output column is the head formula of the arrays the launch found. -/
import proofs.«155896_j79139067396492_1_alg».proof.Proof.Gen.KernelIdeal.Frame
import proofs.«155896_j79139067396492_1_alg».proof.Proof.LayerBody
import Idealize.ShloMosaic.Lib.Pipeline.Value
import Idealize.ShloMosaic.Lib.ValueIdx

set_option maxRecDepth 16384

noncomputable section

open scoped BigOperators

namespace Cert.KernelIdeal.Region6

open Cert.KernelIdeal Cert.KernelIdeal.Gen Idealize.ShloMosaic Idealize.ShloMosaic.TcCoe Idealize.ShloMosaic.ValueIdx
open Idealize.SL.Sem Cert.LayerSpec Cert.KernelIdeal.Body
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the row-blocked windows at block row t, the bias row, the head's
    weight column and the head's bias at their one block. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem point_lt (t : Fin cfg6.N) : t.val < 20 := by
  have hN : cfg6.N = 20 := N_6
  have := t.isLt
  omega

/-- Row p of block t of the edge sums is row 5000·t + p of the array. -/
theorem read0 (c : Dev nD) (t : Fin cfg6.N) (p : Fin 5000) (k : Fin 128) (h : t.val * 5000 + p.val < 100000) :
    iblk6 V c 0 t (ix2 p k) = V c main_v87 (ix2 ⟨t.val * 5000 + p.val, h⟩ k) := by
  show V c main_v87 (((cfg6.win 0).blk t).view.emb (ix2 p k)) = _
  refine congrArg (V c main_v87) ?_
  obtain ⟨e0, e1, -⟩ := index_facts t
  funext a; apply Fin.ext
  match a with
  | ⟨0, _⟩ => show win6_0.index t (0 : Fin 2) * 5000 + 1 * p.val = t.val * 5000 + p.val; omega
  | ⟨1, _⟩ => show win6_0.index t (1 : Fin 2) * 128 + 1 * k.val = k.val; omega

/-- Row p of block t of the norm column is row 5000·t + p of the column. -/
theorem read1 (c : Dev nD) (t : Fin cfg6.N) (p : Fin 5000) (z : Fin 1) (h : t.val * 5000 + p.val < 100000) :
    iblk6 V c 1 t (ix2 p z) = V c main_v14 (ix2 ⟨t.val * 5000 + p.val, h⟩ z) := by
  show V c main_v14 (((cfg6.win 1).blk t).view.emb (ix2 p z)) = _
  refine congrArg (V c main_v14) ?_
  obtain ⟨-, -, e0, e1, -⟩ := index_facts t
  funext a; apply Fin.ext
  match a with
  | ⟨0, _⟩ => show win6_1.index t (0 : Fin 2) * 5000 + 1 * p.val = t.val * 5000 + p.val; omega
  | ⟨1, _⟩ => show win6_1.index t (1 : Fin 2) * 1 + 1 * z.val = z.val; omega

/-- The bias row's one block is the row. -/
theorem read2 (c : Dev nD) (t : Fin cfg6.N) (z : Fin 1) (k : Fin 128) :
    iblk6 V c 2 t (ix2 z k) = V c main_v88 (ix2 z k) := by
  show V c main_v88 (((cfg6.win 2).blk t).view.emb (ix2 z k)) = _
  refine congrArg (V c main_v88) ?_
  obtain ⟨-, -, -, -, e0, e1, -⟩ := index_facts t
  funext a; apply Fin.ext
  match a with
  | ⟨0, _⟩ => show win6_2.index t (0 : Fin 2) * 1 + 1 * z.val = z.val; omega
  | ⟨1, _⟩ => show win6_2.index t (1 : Fin 2) * 128 + 1 * k.val = k.val; omega

/-- The head weight column's one block is the column. -/
theorem read3 (c : Dev nD) (t : Fin cfg6.N) (k : Fin 128) (z : Fin 1) :
    iblk6 V c 3 t (ix2 k z) = V c main_arg15 (ix2 k z) := by
  show V c main_arg15 (((cfg6.win 3).blk t).view.emb (ix2 k z)) = _
  refine congrArg (V c main_arg15) ?_
  obtain ⟨-, -, -, -, -, -, e0, e1, -⟩ := index_facts t
  funext a; apply Fin.ext
  match a with
  | ⟨0, _⟩ => show win6_3.index t (0 : Fin 2) * 128 + 1 * k.val = k.val; omega
  | ⟨1, _⟩ => show win6_3.index t (1 : Fin 2) * 1 + 1 * z.val = z.val; omega

/-- The head bias's one block is its one entry. -/
theorem read4 (c : Dev nD) (t : Fin cfg6.N) (z z' : Fin 1) :
    iblk6 V c 4 t (ix2 z z') = V c main_v89 (ix2 z z') := by
  show V c main_v89 (((cfg6.win 4).blk t).view.emb (ix2 z z')) = _
  refine congrArg (V c main_v89) ?_
  obtain ⟨-, -, -, -, -, -, -, -, e0, e1, -⟩ := index_facts t
  funext a; apply Fin.ext
  match a with
  | ⟨0, _⟩ => show win6_4.index t (0 : Fin 2) * 1 + 1 * z.val = z.val; omega
  | ⟨1, _⟩ => show win6_4.index t (1 : Fin 2) * 1 + 1 * z'.val = z'.val; omega

/-- What point t writes back is block t of the head formula of the whole arrays. -/
theorem flushed_eq (c : Dev nD) (t : Fin cfg6.N) :
    (dat6 V c).flushed 5 t = ((cfg6.win 5).blk t).view.read (Elt Ideal)
      (head (V c main_v87) (V c main_v14) (V c main_v88) (V c main_arg15) (V c main_v89)) := by
  show (cfg6.win 5).cut (grid6.coords t) ((dat6 V c).after 5 t) = _
  rw [after6_5]
  unfold out6_5
  rw [View.canon_unit_zero zero_off]
  simp only [View.ld_unit_zero (S := S5000x128) zero_off, View.ld_unit_zero (S := S5000x1) zero_off,
    View.ld_unit_zero (S := S1x128) zero_off, View.ld_unit_zero (S := S128x1) zero_off,
    View.ld_unit_zero (S := S1x1) zero_off]
  funext j
  obtain ⟨p, z, rfl⟩ : ∃ (p : Fin 5000) (z : Fin 1), j = ix2 p z := ⟨j 0, j 1, eq_ix2 j⟩
  have ht := point_lt t
  have hp := p.isLt
  have hrow : t.val * 5000 + p.val < 100000 := by omega
  obtain ⟨-, -, -, -, -, -, -, -, -, -, e0, e1⟩ := index_facts t
  have hemb : ((cfg6.win 5).blk t).view.emb (ix2 p z) = ix2 (⟨t.val * 5000 + p.val, hrow⟩ : Fin 100000) z := by
    funext a; apply Fin.ext
    match a with
    | ⟨0, _⟩ => show win6_5.index t (0 : Fin 2) * 5000 + 1 * p.val = t.val * 5000 + p.val; omega
    | ⟨1, _⟩ => show win6_5.index t (1 : Fin 2) * 1 + 1 * z.val = z.val; omega
  show k6_pay1 (iblk6 V c 0 t) (iblk6 V c 1 t) (iblk6 V c 2 t) (iblk6 V c 3 t) (iblk6 V c 4 t) (ix2 p z)
    = head (V c main_v87) (V c main_v14) (V c main_v88) (V c main_arg15) (V c main_v89)
        (((cfg6.win 5).blk t).view.emb (ix2 p z))
  rw [hemb, head_apply]
  refine (pay_head_apply (iblk6 V c 0 t) (iblk6 V c 1 t) (iblk6 V c 2 t) (iblk6 V c 3 t) (iblk6 V c 4 t) p z).trans ?_
  unfold headAt
  rw [read4 V c t 0 0]
  refine congrArg (· + V c main_v89 (ix2 (0 : Fin 1) (0 : Fin 1))) ?_
  refine Finset.sum_congr rfl fun k _ => ?_
  rw [read0 V c t p k hrow, read1 V c t p 0 hrow, read2 V c t 0 k, read3 V c t k 0]

/-- An index of the output lies in point t's block iff each coordinate lies in the block's range. -/
theorem mem_blk (t : Fin cfg6.N) (i : S100000x1.Idx) :
    i ∈ ((cfg6.win 5).blk t).view.set ↔ ∀ a : Fin 2, win6_5.index t a * S5000x1.size a ≤ (i a).val
      ∧ (i a).val < win6_5.index t a * S5000x1.size a + S5000x1.size a := by
  show i ∈ ((View.whole main_v90).slice (win6_5.rect t)).set ↔ _
  rw [View.set_slice_whole, Rect.mem_set_unit]
  exact Iff.rfl

/-- Row r of the output lies in the block of point r / 5000. -/
theorem cover (i : S100000x1.Idx) :
    ∃ t : Fin cfg6.N, (cfg6.win 5).flush t = true ∧ i ∈ ((cfg6.win 5).blk t).view.set := by
  have hi0 : (i 0).val < 100000 := (i 0).isLt
  have hi1 : (i 1).val < 1 := (i 1).isLt
  have hN : cfg6.N = 20 := N_6
  have hlt : (i 0).val / 5000 < cfg6.N := by omega
  obtain ⟨-, -, -, -, -, -, -, -, -, -, e0, e1⟩ := index_facts ⟨(i 0).val / 5000, hlt⟩
  refine ⟨⟨(i 0).val / 5000, hlt⟩, flush6_5 _, ?_⟩
  rw [mem_blk]
  intro a
  match a with
  | ⟨0, _⟩ =>
    show win6_5.index ⟨(i 0).val / 5000, hlt⟩ (0 : Fin 2) * 5000 ≤ (i 0).val
      ∧ (i 0).val < win6_5.index ⟨(i 0).val / 5000, hlt⟩ (0 : Fin 2) * 5000 + 5000
    have e0' : win6_5.index ⟨(i 0).val / 5000, hlt⟩ (0 : Fin 2) = (i 0).val / 5000 := e0
    omega
  | ⟨1, _⟩ =>
    show win6_5.index ⟨(i 0).val / 5000, hlt⟩ (1 : Fin 2) * 1 ≤ (i 1).val
      ∧ (i 1).val < win6_5.index ⟨(i 0).val / 5000, hlt⟩ (1 : Fin 2) * 1 + 1
    omega

/-- After the launch its output column is the head formula of the arrays it found. -/
theorem value (c : Dev nD) :
    (dat6 V c).arrAt 5 cfg6.N
      = head (V c main_v87) (V c main_v14) (V c main_v88) (V c main_arg15) (V c main_v89) :=
  (dat6 V c).arrAt_eq_of_cover 5 _ (fun t _ => flushed_eq V c t) cover

end Cert.KernelIdeal.Region6

end
-- ==== Proof.KernelValue.lean ====
/- The idealized kernel's result as one function of its arguments.  Reading the boundary contents backwards from the
   last launch: each launch's output is the launch formula of what it found; what it found is the previous launch's
   output gathered at the edge sources and summed at the edge targets, the two degree-norm columns, the previous
   layer's bias as a row and the layer's weights — all of them either computed by the host stretch just before it
   or untouched since the first launch's entry, where they are the launch memory's arguments and the norms computed
   from the edge lists. -/
import proofs.«155896_j79139067396492_1_alg».proof.Proof.Gen.KernelIdeal.Frame
import proofs.«155896_j79139067396492_1_alg».proof.Proof.Stages
import proofs.«155896_j79139067396492_1_alg».proof.Proof.LayerSpec
import proofs.«155896_j79139067396492_1_alg».proof.Proof.Region0
import proofs.«155896_j79139067396492_1_alg».proof.Proof.Region1
import proofs.«155896_j79139067396492_1_alg».proof.Proof.Region2
import proofs.«155896_j79139067396492_1_alg».proof.Proof.Region3
import proofs.«155896_j79139067396492_1_alg».proof.Proof.Region4
import proofs.«155896_j79139067396492_1_alg».proof.Proof.Region5
import proofs.«155896_j79139067396492_1_alg».proof.Proof.Region6

set_option maxRecDepth 16384

noncomputable section

namespace Cert.KernelIdeal.Net

open Cert.KernelIdeal Cert.KernelIdeal.Gen Cert.KernelIdeal.Stages Idealize.ShloMosaic Idealize.ShloMosaic.TcCoe
open Idealize.SL.Sem Cert.LayerSpec

/-- The column of ones and the row of zeros the first launch is given in place of a norm and a bias. -/
abbrev onesK : (⟨S100000x1, .f32⟩ : BufTy).Contents (Elt Ideal) :=
  broadcastInDim S100000x1 ![] bcast_S_S100000x1 (constant (F := Ideal) S_ .f32 0x3F800000#32)
abbrev zerosK : (⟨S1x128, .f32⟩ : BufTy).Contents (Elt Ideal) :=
  broadcastInDim S1x128 ![] bcast_S_S1x128 (constant (F := Ideal) S_ .f32 0x00000000#32)

/-- The first launch: the features times the first weights, scaled by the source norms. -/
def L0 (x : (⟨S100000x128, .f32⟩ : BufTy).Contents (Elt Ideal)) (src : (⟨S1600000, .i32⟩ : BufTy).Contents (Elt Ideal))
    (W : (⟨S128x128, .f32⟩ : BufTy).Contents (Elt Ideal)) : (⟨S100000x128, .f32⟩ : BufTy).Contents (Elt Ideal) :=
  step id x onesK zerosK (normCol src) W

/-- An inner launch on the previous launch's output y: sum y over the edges, finish the layer, start the next. -/
def L (y : (⟨S100000x128, .f32⟩ : BufTy).Contents (Elt Ideal)) (src dst : (⟨S1600000, .i32⟩ : BufTy).Contents (Elt Ideal))
    (b : (⟨S128, .f32⟩ : BufTy).Contents (Elt Ideal)) (W : (⟨S128x128, .f32⟩ : BufTy).Contents (Elt Ideal)) :
    (⟨S100000x128, .f32⟩ : BufTy).Contents (Elt Ideal) :=
  step relu0 (agg src dst y) (normCol dst) (shapeCast S1x128 b shapeCasts_S128_S1x128) (normCol src) W

/-- The last launch on the sixth launch's output y: sum y over the edges, finish layer six, apply the head. -/
def H (y : (⟨S100000x128, .f32⟩ : BufTy).Contents (Elt Ideal)) (src dst : (⟨S1600000, .i32⟩ : BufTy).Contents (Elt Ideal))
    (b : (⟨S128, .f32⟩ : BufTy).Contents (Elt Ideal)) (Wl : (⟨S128x1, .f32⟩ : BufTy).Contents (Elt Ideal))
    (bl : (⟨S1, .f32⟩ : BufTy).Contents (Elt Ideal)) : (⟨S100000x1, .f32⟩ : BufTy).Contents (Elt Ideal) :=
  head (agg src dst y) (normCol dst) (shapeCast S1x128 b shapeCasts_S128_S1x128) Wl (shapeCast S1x1 bl shapeCasts_S1_S1x1)

variable (m : (ℓ : Loc nD τ sig) → Buf (Elt Ideal) ℓ) (ρ : Dev nD → PrngReg)

/-- The first launch's output. -/
theorem y0 (c : Dev nD) : W6 m ρ c (Proc.devRef .tc main_v17) = L0 (m ((c : Thread nD τ).loc main_arg0)) (m ((c : Thread nD τ).loc main_arg1)) (m ((c : Thread nD τ).loc main_arg3)) := by
  refine (W6_arr m ρ c 5).trans ((Region0.value (V5 m ρ) c).trans ?_)
  show step id (W5 m ρ c (Proc.devRef .tc main_arg0)) (W5 m ρ c (Proc.devRef .tc main_v15)) (W5 m ρ c (Proc.devRef .tc main_v16))
    (W5 m ρ c (Proc.devRef .tc main_v10)) (W5 m ρ c (Proc.devRef .tc main_arg3)) = _
  rw [arg_at5 m ρ c main_arg0 (by decide), arg_at5 m ρ c main_arg3 (by decide), W5_v15, W5_v16, W5_v10]
  rfl

/-- Launch 2's output. -/
theorem y1 (c : Dev nD) : W8 m ρ c (Proc.devRef .tc main_v29) = L (L0 (m ((c : Thread nD τ).loc main_arg0)) (m ((c : Thread nD τ).loc main_arg1)) (m ((c : Thread nD τ).loc main_arg3))) (m ((c : Thread nD τ).loc main_arg1)) (m ((c : Thread nD τ).loc main_arg2)) (m ((c : Thread nD τ).loc main_arg4)) (m ((c : Thread nD τ).loc main_arg5)) := by
  refine (W8_arr m ρ c 5).trans ((Region1.value (V7 m ρ) c).trans ?_)
  show step relu0 (W7 m ρ c (Proc.devRef .tc main_v27)) (W7 m ρ c (Proc.devRef .tc main_v14)) (W7 m ρ c (Proc.devRef .tc main_v28))
    (W7 m ρ c (Proc.devRef .tc main_v10)) (W7 m ρ c (Proc.devRef .tc main_arg5)) = _
  rw [host1_agg, host1_bias, at7 m ρ c main_v14 (by decide), at7 m ρ c main_v10 (by decide), at7 m ρ c main_arg5 (by decide),
    at6 m ρ c main_arg1 (by decide), at6 m ρ c main_arg2 (by decide), at6 m ρ c main_arg4 (by decide),
    W5_v14, W5_v10, arg_at5 m ρ c main_arg5 (by decide), arg_at5 m ρ c main_arg1 (by decide), arg_at5 m ρ c main_arg2 (by decide),
    arg_at5 m ρ c main_arg4 (by decide), y0]
  rfl

/-- Launch 3's output. -/
theorem y2 (c : Dev nD) : W10 m ρ c (Proc.devRef .tc main_v41) = L (L (L0 (m ((c : Thread nD τ).loc main_arg0)) (m ((c : Thread nD τ).loc main_arg1)) (m ((c : Thread nD τ).loc main_arg3))) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) := by
  refine (W10_arr m ρ c 5).trans ((Region2.value (V9 m ρ) c).trans ?_)
  show step relu0 (W9 m ρ c (Proc.devRef .tc main_v39)) (W9 m ρ c (Proc.devRef .tc main_v14)) (W9 m ρ c (Proc.devRef .tc main_v40))
    (W9 m ρ c (Proc.devRef .tc main_v10)) (W9 m ρ c (Proc.devRef .tc main_arg7)) = _
  rw [host2_agg, host2_bias, at9 m ρ c main_v14 (by decide), at9 m ρ c main_v10 (by decide), at9 m ρ c main_arg7 (by decide),
    at8 m ρ c main_arg1 (by decide), at8 m ρ c main_arg2 (by decide), at8 m ρ c main_arg6 (by decide),
    W5_v14, W5_v10, arg_at5 m ρ c main_arg7 (by decide), arg_at5 m ρ c main_arg1 (by decide), arg_at5 m ρ c main_arg2 (by decide),
    arg_at5 m ρ c main_arg6 (by decide), y1]
  rfl

/-- Launch 4's output. -/
theorem y3 (c : Dev nD) : W12 m ρ c (Proc.devRef .tc main_v53) = L (L (L (L0 (m ((c : Thread nD τ).loc main_arg0)) (m ((c : Thread nD τ).loc main_arg1)) (m ((c : Thread nD τ).loc main_arg3))) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) := by
  refine (W12_arr m ρ c 5).trans ((Region3.value (V11 m ρ) c).trans ?_)
  show step relu0 (W11 m ρ c (Proc.devRef .tc main_v51)) (W11 m ρ c (Proc.devRef .tc main_v14)) (W11 m ρ c (Proc.devRef .tc main_v52))
    (W11 m ρ c (Proc.devRef .tc main_v10)) (W11 m ρ c (Proc.devRef .tc main_arg9)) = _
  rw [host3_agg, host3_bias, at11 m ρ c main_v14 (by decide), at11 m ρ c main_v10 (by decide), at11 m ρ c main_arg9 (by decide),
    at10 m ρ c main_arg1 (by decide), at10 m ρ c main_arg2 (by decide), at10 m ρ c main_arg8 (by decide),
    W5_v14, W5_v10, arg_at5 m ρ c main_arg9 (by decide), arg_at5 m ρ c main_arg1 (by decide), arg_at5 m ρ c main_arg2 (by decide),
    arg_at5 m ρ c main_arg8 (by decide), y2]
  rfl

/-- Launch 5's output. -/
theorem y4 (c : Dev nD) : W14 m ρ c (Proc.devRef .tc main_v65) = L (L (L (L (L0 (m ((c : Thread nD τ).loc main_arg0)) (m ((c : Thread nD τ).loc main_arg1)) (m ((c : Thread nD τ).loc main_arg3))) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9))) (m ((c : Thread nD τ).loc main_arg1)) (m ((c : Thread nD τ).loc main_arg2)) (m ((c : Thread nD τ).loc main_arg10)) (m ((c : Thread nD τ).loc main_arg11)) := by
  refine (W14_arr m ρ c 5).trans ((Region4.value (V13 m ρ) c).trans ?_)
  show step relu0 (W13 m ρ c (Proc.devRef .tc main_v63)) (W13 m ρ c (Proc.devRef .tc main_v14)) (W13 m ρ c (Proc.devRef .tc main_v64))
    (W13 m ρ c (Proc.devRef .tc main_v10)) (W13 m ρ c (Proc.devRef .tc main_arg11)) = _
  rw [host4_agg, host4_bias, at13 m ρ c main_v14 (by decide), at13 m ρ c main_v10 (by decide), at13 m ρ c main_arg11 (by decide),
    at12 m ρ c main_arg1 (by decide), at12 m ρ c main_arg2 (by decide), at12 m ρ c main_arg10 (by decide),
    W5_v14, W5_v10, arg_at5 m ρ c main_arg11 (by decide), arg_at5 m ρ c main_arg1 (by decide), arg_at5 m ρ c main_arg2 (by decide),
    arg_at5 m ρ c main_arg10 (by decide), y3]
  rfl

/-- Launch 6's output. -/
theorem y5 (c : Dev nD) : W16 m ρ c (Proc.devRef .tc main_v77) = L (L (L (L (L (L0 (m ((c : Thread nD τ).loc main_arg0)) (m ((c : Thread nD τ).loc main_arg1)) (m ((c : Thread nD τ).loc main_arg3))) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9))) (m ((c : Thread nD τ).loc main_arg1)) (m ((c : Thread nD τ).loc main_arg2)) (m ((c : Thread nD τ).loc main_arg10)) (m ((c : Thread nD τ).loc main_arg11))) (m ((c : Thread nD τ).loc main_arg1)) (m ((c : Thread nD τ).loc main_arg2)) (m ((c : Thread nD τ).loc main_arg12)) (m ((c : Thread nD τ).loc main_arg13)) := by
  refine (W16_arr m ρ c 5).trans ((Region5.value (V15 m ρ) c).trans ?_)
  show step relu0 (W15 m ρ c (Proc.devRef .tc main_v75)) (W15 m ρ c (Proc.devRef .tc main_v14)) (W15 m ρ c (Proc.devRef .tc main_v76))
    (W15 m ρ c (Proc.devRef .tc main_v10)) (W15 m ρ c (Proc.devRef .tc main_arg13)) = _
  rw [host5_agg, host5_bias, at15 m ρ c main_v14 (by decide), at15 m ρ c main_v10 (by decide), at15 m ρ c main_arg13 (by decide),
    at14 m ρ c main_arg1 (by decide), at14 m ρ c main_arg2 (by decide), at14 m ρ c main_arg12 (by decide),
    W5_v14, W5_v10, arg_at5 m ρ c main_arg13 (by decide), arg_at5 m ρ c main_arg1 (by decide), arg_at5 m ρ c main_arg2 (by decide),
    arg_at5 m ρ c main_arg12 (by decide), y4]
  rfl

/-- The result: the last launch's output. -/
theorem result (c : Dev nD) : W18 m ρ c (Proc.devRef .tc main_v90) = H (L (L (L (L (L (L0 (m ((c : Thread nD τ).loc main_arg0)) (m ((c : Thread nD τ).loc main_arg1)) (m ((c : Thread nD τ).loc main_arg3))) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9))) (m ((c : Thread nD τ).loc main_arg1)) (m ((c : Thread nD τ).loc main_arg2)) (m ((c : Thread nD τ).loc main_arg10)) (m ((c : Thread nD τ).loc main_arg11))) (m ((c : Thread nD τ).loc main_arg1)) (m ((c : Thread nD τ).loc main_arg2)) (m ((c : Thread nD τ).loc main_arg12)) (m ((c : Thread nD τ).loc main_arg13))) (m ((c : Thread nD τ).loc main_arg1)) (m ((c : Thread nD τ).loc main_arg2)) (m ((c : Thread nD τ).loc main_arg14)) (m ((c : Thread nD τ).loc main_arg15)) (m ((c : Thread nD τ).loc main_arg16)) := by
  refine (W18_arr m ρ c 5).trans ((Region6.value (V17 m ρ) c).trans ?_)
  show head (W17 m ρ c (Proc.devRef .tc main_v87)) (W17 m ρ c (Proc.devRef .tc main_v14)) (W17 m ρ c (Proc.devRef .tc main_v88))
    (W17 m ρ c (Proc.devRef .tc main_arg15)) (W17 m ρ c (Proc.devRef .tc main_v89)) = _
  rw [host6_agg, host6_bias, host6_bl, at17 m ρ c main_v14 (by decide), at17 m ρ c main_arg15 (by decide),
    at16 m ρ c main_arg1 (by decide), at16 m ρ c main_arg2 (by decide), at16 m ρ c main_arg14 (by decide), at16 m ρ c main_arg16 (by decide),
    W5_v14, arg_at5 m ρ c main_arg15 (by decide), arg_at5 m ρ c main_arg1 (by decide), arg_at5 m ρ c main_arg2 (by decide),
    arg_at5 m ρ c main_arg14 (by decide), arg_at5 m ρ c main_arg16 (by decide), y5]
  rfl

end Cert.KernelIdeal.Net

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.RefLayer.lean ====
/- The reference's layers, read index by index.  Each of the five inner layers of the reference scales the edge sums by
   the target norms down the rows, adds the bias along the columns, takes the larger of the value and zero, multiplies
   by the weights and scales by the source norms down the rows: at entry (p, q) that is
       (∑ₖ max (A p k · inn p + b k) 0 · W k q) · outn p,
   the launch formula with the norms read as columns and the bias as a row.  The first layer has no previous layer to
   finish: it is the same formula with the identity activation, a column of ones and a row of zeros, because
   x · 1 + 0 = x for every extended real.  The last step finishes layer six and applies the linear head:
       ∑ₖ (A p k · inn p + b k) · Wl k + bl. -/
import proofs.«155896_j79139067396492_1_alg».proof.ReferenceIdeal
import proofs.«155896_j79139067396492_1_alg».proof.Proof.LayerSpec
import proofs.«155896_j79139067396492_1_alg».proof.Proof.LibHostDotIx
import proofs.«155896_j79139067396492_1_alg».proof.Proof.LibColumn
import proofs.«155896_j79139067396492_1_alg».proof.Proof.LibRow
import Idealize.ShloMosaic.Lib.ValueIdx
import Idealize.ShloMosaic.Lib.Pipeline.Value
import Idealize.ShloMosaic.Lib.ValueLayout

noncomputable section

open scoped BigOperators

namespace Cert.ReferenceIdeal.RefValue

open Cert.ReferenceIdeal Idealize.ShloMosaic Idealize.ShloMosaic.ValueIdx Cert.LayerSpec

variable [Facts]
open Facts₀ Facts

/-- A length-b array cast to the row [1, b] reads, at (z, j), the operand at j, whatever the unit coordinate z. -/
theorem shapeCast_b_1b_apply {α : Type} {b : ℕ} (x : (⟨1, ![b]⟩ : Shape).Idx → α)
    (h : (⟨1, ![b]⟩ : Shape).ShapeCasts ⟨2, ![1, b]⟩) (z : Fin 1) (j : Fin b) :
    shapeCast ⟨2, ![1, b]⟩ x h (ix2 z j) = x (ix1 j) :=
  shapeCast_apply x h _ _ (by
    have hz : z.val = 0 := by omega
    rw [Shape.rowMajor_val_one, Shape.rowMajor_val_two]
    show j.val = z.val * b + j.val
    rw [hz, Nat.zero_mul, Nat.zero_add])

/-- A vector of row values, made a column and spread along the columns, holds at (p, q) the vector's entry p. -/
theorem col_read (v : FVec Ideal S100000 .f32) (p : Fin 100000) (q : Fin 128) :
    broadcastInDim S100000x128 ![0, 1] bcast_S100000x1_S100000x128_0_1
      (broadcastInDim S100000x1 ![0] bcast_S100000_S100000x1_0 v) (ix2 p q) = v (ix1 p) := by
  refine (broadcastInDim_apply _ bcast_S100000x1_S100000x128_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 v (ix2 p (0 : Fin 1)) (ix1 p) (fun a => match a with
    | ⟨0, _⟩ => by show p.val = if (100000 : Nat) = 1 then 0 else p.val; rw [if_neg (by decide)])

/-- A vector of column values, made a row and spread down the rows, holds at (p, q) the vector's entry q. -/
theorem row_read (b : FVec Ideal S128 .f32) (p : Fin 100000) (q : Fin 128) :
    broadcastInDim S100000x128 ![0, 1] bcast_S1x128_S100000x128_0_1
      (broadcastInDim S1x128 ![1] bcast_S128_S1x128_1 b) (ix2 p q) = b (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- A constant spread over the whole matrix holds, at every entry, the value its bit pattern denotes. -/
theorem splat_read (w : BitVec 32) (p : Fin 100000) (q : Fin 128) :
    broadcastInDim S100000x128 ![] bcast_S_S100000x128 (constant (F := Ideal) S_ .f32 w) (ix2 p q)
      = Ideal.ofBits .f32 w :=
  (broadcastInDim_apply _ bcast_S_S100000x128 (constant (F := Ideal) S_ .f32 w) (ix2 p q) ix0
    (fun a => a.elim0)).trans rfl

/-- A one-entry vector, made a 1 × 1 matrix and spread down a column, holds at every row its single entry. -/
theorem one_read (bl : FVec Ideal S1 .f32) (p : Fin 100000) (z : Fin 1) :
    broadcastInDim S100000x1 ![0, 1] bcast_S1x1_S100000x1_0_1
      (broadcastInDim S1x1 ![1] bcast_S1_S1x1_1 bl) (ix2 p z) = bl (ix1 (0 : Fin 1)) := by
  refine (broadcastInDim_apply _ bcast_S1x1_S100000x1_0_1 _ (ix2 p z) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else z.val; rw [if_pos rfl])).trans ?_
  exact broadcastInDim_apply _ bcast_S1_S1x1_1 bl (ix2 (0 : Fin 1) (0 : Fin 1)) (ix1 (0 : Fin 1)) (fun a => match a with
    | ⟨0, _⟩ => by show 0 = if (1 : Nat) = 1 then 0 else 0; rw [if_pos rfl])

/-- An inner layer of the reference is the launch formula with the activation "larger of the value and zero". -/
theorem ref_step (A : FVec Ideal S100000x128 .f32) (inn outn : FVec Ideal S100000 .f32) (b : FVec Ideal S128 .f32)
    (W : FVec Ideal S128x128 .f32) (h1 : S100000.ShapeCasts S100000x1) (h2 : S128.ShapeCasts S1x128) :
    mulf (Host.dotGeneral dot_S100000x128_S128x128_S100000x128_1_0_0_1_n_n none
        (maximumf (addf (mulf A (broadcastInDim S100000x128 ![0, 1] bcast_S100000x1_S100000x128_0_1 (broadcastInDim S100000x1 ![0] bcast_S100000_S100000x1_0 inn)))
                        (broadcastInDim S100000x128 ![0, 1] bcast_S1x128_S100000x128_0_1 (broadcastInDim S1x128 ![1] bcast_S128_S1x128_1 b)))
                  (broadcastInDim S100000x128 ![] bcast_S_S100000x128 (constant S_ .f32 0x00000000#32))) W)
      (broadcastInDim S100000x128 ![0, 1] bcast_S100000x1_S100000x128_0_1 (broadcastInDim S100000x1 ![0] bcast_S100000_S100000x1_0 outn))
    = step relu0 A (shapeCast S100000x1 inn h1) (shapeCast S1x128 b h2) (shapeCast S100000x1 outn h1) W := by
  funext i
  obtain ⟨p, q, rfl⟩ : ∃ (p : Fin 100000) (q : Fin 128), i = ix2 p q := ⟨i 0, i 1, eq_ix2 i⟩
  rw [step_apply]
  unfold stepAt
  rw [mulf_apply, col_read outn p q, LibColumn.shapeCast_a_a1_apply outn h1 p (0 : Fin 1)]
  refine congrArg (fun x : EReal => x * outn (ix1 p)) ?_
  refine (LibHostDotIx.dotGeneral_apply dot_S100000x128_S128x128_S100000x128_1_0_0_1_n_n.wf none _ _ p q).trans ?_
  refine Finset.sum_congr rfl fun k _ => ?_
  refine congrArg (fun x : EReal => x * W (ix2 k q)) ?_
  rw [maximumf_apply, addf_apply, mulf_apply, col_read inn p k, row_read b p k, splat_read _ p k,
    LibColumn.shapeCast_a_a1_apply inn h1 p (0 : Fin 1), shapeCast_b_1b_apply b h2 (0 : Fin 1) k]
  rfl

/-- The first layer of the reference is the launch formula with the identity activation, a column of ones in place of
    the target norms and a row of zeros in place of the bias: x · 1 + 0 = x for every extended real. -/
theorem ref_first (X : FVec Ideal S100000x128 .f32) (outn : FVec Ideal S100000 .f32) (W : FVec Ideal S128x128 .f32)
    (h1 : S100000.ShapeCasts S100000x1) (ones : FVec Ideal S100000x1 .f32) (zeros : FVec Ideal S1x128 .f32)
    (hones : ∀ i, ones i = 1) (hzeros : ∀ i, zeros i = 0) :
    mulf (Host.dotGeneral dot_S100000x128_S128x128_S100000x128_1_0_0_1_n_n none X W)
      (broadcastInDim S100000x128 ![0, 1] bcast_S100000x1_S100000x128_0_1 (broadcastInDim S100000x1 ![0] bcast_S100000_S100000x1_0 outn))
    = step id X ones zeros (shapeCast S100000x1 outn h1) W := by
  funext i
  obtain ⟨p, q, rfl⟩ : ∃ (p : Fin 100000) (q : Fin 128), i = ix2 p q := ⟨i 0, i 1, eq_ix2 i⟩
  rw [step_apply]
  unfold stepAt
  rw [mulf_apply, col_read outn p q, LibColumn.shapeCast_a_a1_apply outn h1 p (0 : Fin 1)]
  refine congrArg (fun x : EReal => x * outn (ix1 p)) ?_
  refine (LibHostDotIx.dotGeneral_apply dot_S100000x128_S128x128_S100000x128_1_0_0_1_n_n.wf none _ _ p q).trans ?_
  refine Finset.sum_congr rfl fun k _ => ?_
  refine congrArg (fun x : EReal => x * W (ix2 k q)) ?_
  rw [hones, hzeros, mul_one, add_zero]
  rfl

/-- The last step of the reference finishes layer six (scale by the target norms, add the bias, no activation) and
    applies the linear head. -/
theorem ref_head (A : FVec Ideal S100000x128 .f32) (inn : FVec Ideal S100000 .f32) (b : FVec Ideal S128 .f32)
    (Wl : FVec Ideal S128x1 .f32) (bl : FVec Ideal S1 .f32)
    (h1 : S100000.ShapeCasts S100000x1) (h2 : S128.ShapeCasts S1x128) (h3 : S1.ShapeCasts S1x1) :
    addf (Host.dotGeneral dot_S100000x128_S128x1_S100000x1_1_0_0_1_n_n none
        (addf (mulf A (broadcastInDim S100000x128 ![0, 1] bcast_S100000x1_S100000x128_0_1 (broadcastInDim S100000x1 ![0] bcast_S100000_S100000x1_0 inn)))
              (broadcastInDim S100000x128 ![0, 1] bcast_S1x128_S100000x128_0_1 (broadcastInDim S1x128 ![1] bcast_S128_S1x128_1 b))) Wl)
      (broadcastInDim S100000x1 ![0, 1] bcast_S1x1_S100000x1_0_1 (broadcastInDim S1x1 ![1] bcast_S1_S1x1_1 bl))
    = head A (shapeCast S100000x1 inn h1) (shapeCast S1x128 b h2) Wl (shapeCast S1x1 bl h3) := by
  funext i
  obtain ⟨p, z, rfl⟩ : ∃ (p : Fin 100000) (z : Fin 1), i = ix2 p z := ⟨i 0, i 1, eq_ix2 i⟩
  rw [head_apply]
  unfold headAt
  have hz : z = (0 : Fin 1) := Subsingleton.elim _ _
  subst hz
  rw [addf_apply, one_read bl p (0 : Fin 1), shapeCast_b_1b_apply bl h3 (0 : Fin 1) (0 : Fin 1)]
  refine congrArg (fun x : EReal => x + bl (ix1 (0 : Fin 1))) ?_
  refine (LibHostDotIx.dotGeneral_apply dot_S100000x128_S128x1_S100000x1_1_0_0_1_n_n.wf none _ _ p (0 : Fin 1)).trans ?_
  refine Finset.sum_congr rfl fun k _ => ?_
  refine congrArg (fun x : EReal => x * Wl (ix2 k (0 : Fin 1))) ?_
  rw [addf_apply, mulf_apply, col_read inn p k, row_read b p k,
    LibColumn.shapeCast_a_a1_apply inn h1 p (0 : Fin 1), shapeCast_b_1b_apply b h2 (0 : Fin 1) k]

end Cert.ReferenceIdeal.RefValue

end
-- ==== Proof.RefNet.lean ====
/- The whole reference network as a nest of launches.  The reference computes the two columns of degree norms from the
   edge lists (an edge count per node, at least one, to the power -1/2), and then alternates, six times, "multiply by
   the weights and scale by the source norms" with "sum over the edges into the target nodes"; between two such steps
   it scales by the target norms, adds the bias and takes the larger of the value and zero; after the sixth it scales,
   adds the bias and applies the linear head.  With the edge sums and the norms kept as opaque terms of the edge lists,
   each step between two edge sums is one launch formula, and the network's result is the nest
       head (agg (step (agg (step … (agg (step id x 1 0 nsrc W1)) …)))).
   The first lemma says so for the reference's own operations over any arguments; the second reads the run's result
   term as that nest at the arguments' contents. -/
import proofs.«155896_j79139067396492_1_alg».proof.Proof.Gen.ReferenceIdeal
import proofs.«155896_j79139067396492_1_alg».proof.Proof.Gen.ReferenceIdeal.Run
import proofs.«155896_j79139067396492_1_alg».proof.Proof.RefLayer

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LayerSpec

/-- The degree norms of an edge list: per node, the number of edges that name it, at least one, to the power -1/2. -/
def normR (idx : (⟨S1600000, .i32⟩ : BufTy).Contents (Elt Ideal)) : FVec Ideal S100000 .f32 :=
  Host.powf (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 idx) (broadcastInDim S1600000 ![] bcast_S_S1600000 (constant S_ .f32 0x3F800000#32)))) (broadcastInDim S100000 ![] bcast_S_S100000 (constant S_ .f32 0xBF000000#32))

/-- The edge sums: each target node collects the rows of its edges' source nodes (a negative source index counts
    from the end). -/
def aggR (src dst : (⟨S1600000, .i32⟩ : BufTy).Contents (Elt Ideal)) (y : FVec Ideal S100000x128 .f32) : FVec Ideal S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 y (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- An inner layer as the reference computes it between two edge sums: scale by the target norms, add the bias, take
    the larger of the value and zero, multiply by the weights, scale by the source norms. -/
def layR (A : FVec Ideal S100000x128 .f32) (inn outn : FVec Ideal S100000 .f32) (b : FVec Ideal S128 .f32) (W : FVec Ideal S128x128 .f32) : FVec Ideal S100000x128 .f32 :=
  mulf (Host.dotGeneral dot_S100000x128_S128x128_S100000x128_1_0_0_1_n_n none (maximumf (addf (mulf A (broadcastInDim S100000x128 ![0, 1] bcast_S100000x1_S100000x128_0_1 (broadcastInDim S100000x1 ![0] bcast_S100000_S100000x1_0 inn))) (broadcastInDim S100000x128 ![0, 1] bcast_S1x128_S100000x128_0_1 (broadcastInDim S1x128 ![1] bcast_S128_S1x128_1 b))) (broadcastInDim S100000x128 ![] bcast_S_S100000x128 (constant S_ .f32 0x00000000#32))) W) (broadcastInDim S100000x128 ![0, 1] bcast_S100000x1_S100000x128_0_1 (broadcastInDim S100000x1 ![0] bcast_S100000_S100000x1_0 outn))

/-- The first layer as the reference computes it: multiply by the weights, scale by the source norms. -/
def firstR (X : FVec Ideal S100000x128 .f32) (outn : FVec Ideal S100000 .f32) (W : FVec Ideal S128x128 .f32) : FVec Ideal S100000x128 .f32 :=
  mulf (Host.dotGeneral dot_S100000x128_S128x128_S100000x128_1_0_0_1_n_n none X W) (broadcastInDim S100000x128 ![0, 1] bcast_S100000x1_S100000x128_0_1 (broadcastInDim S100000x1 ![0] bcast_S100000_S100000x1_0 outn))

/-- The last step as the reference computes it: scale by the target norms, add the bias, apply the linear head. -/
def headR (A : FVec Ideal S100000x128 .f32) (inn : FVec Ideal S100000 .f32) (b : FVec Ideal S128 .f32) (Wl : FVec Ideal S128x1 .f32) (bl : FVec Ideal S1 .f32) : FVec Ideal S100000x1 .f32 :=
  addf (Host.dotGeneral dot_S100000x128_S128x1_S100000x1_1_0_0_1_n_n none (addf (mulf A (broadcastInDim S100000x128 ![0, 1] bcast_S100000x1_S100000x128_0_1 (broadcastInDim S100000x1 ![0] bcast_S100000_S100000x1_0 inn))) (broadcastInDim S100000x128 ![0, 1] bcast_S1x128_S100000x128_0_1 (broadcastInDim S1x128 ![1] bcast_S128_S1x128_1 b))) Wl) (broadcastInDim S100000x1 ![0, 1] bcast_S1x1_S100000x1_0_1 (broadcastInDim S1x1 ![1] bcast_S1_S1x1_1 bl))

/-- The network as a nest of launches: layer k finishes layer k-1 on the edge sums of its output (target norms, bias
    k-1, activation), multiplies by the weights k and scales by the source norms; the last launch finishes layer six
    and applies the head. -/
def netR (ones : FVec Ideal S100000x1 .f32) (zeros : FVec Ideal S1x128 .f32) (h1 : S100000.ShapeCasts S100000x1)
    (h2 : S128.ShapeCasts S1x128) (h3 : S1.ShapeCasts S1x1) (x : FVec Ideal S100000x128 .f32) (src dst : (⟨S1600000, .i32⟩ : BufTy).Contents (Elt Ideal))
    (W1 : FVec Ideal S128x128 .f32) (b1 : FVec Ideal S128 .f32) (W2 : FVec Ideal S128x128 .f32) (b2 : FVec Ideal S128 .f32) (W3 : FVec Ideal S128x128 .f32) (b3 : FVec Ideal S128 .f32) (W4 : FVec Ideal S128x128 .f32) (b4 : FVec Ideal S128 .f32) (W5 : FVec Ideal S128x128 .f32) (b5 : FVec Ideal S128 .f32) (W6 : FVec Ideal S128x128 .f32) (b6 : FVec Ideal S128 .f32) (Wl : FVec Ideal S128x1 .f32) (bl : FVec Ideal S1 .f32) : FVec Ideal S100000x1 .f32 :=
  head (aggR src dst (step relu0 (aggR src dst (step relu0 (aggR src dst (step relu0 (aggR src dst (step relu0 (aggR src dst (step relu0 (aggR src dst (step id x ones zeros (shapeCast S100000x1 (normR src) h1) W1)) (shapeCast S100000x1 (normR dst) h1) (shapeCast S1x128 b1 h2) (shapeCast S100000x1 (normR src) h1) W2)) (shapeCast S100000x1 (normR dst) h1) (shapeCast S1x128 b2 h2) (shapeCast S100000x1 (normR src) h1) W3)) (shapeCast S100000x1 (normR dst) h1) (shapeCast S1x128 b3 h2) (shapeCast S100000x1 (normR src) h1) W4)) (shapeCast S100000x1 (normR dst) h1) (shapeCast S1x128 b4 h2) (shapeCast S100000x1 (normR src) h1) W5)) (shapeCast S100000x1 (normR dst) h1) (shapeCast S1x128 b5 h2) (shapeCast S100000x1 (normR src) h1) W6)) (shapeCast S100000x1 (normR dst) h1) (shapeCast S1x128 b6 h2) Wl (shapeCast S1x1 bl h3)

/-- The reference's operations, nested as the reference nests them, are the nest of launches. -/
theorem net_eq (ones : FVec Ideal S100000x1 .f32) (zeros : FVec Ideal S1x128 .f32) (hones : ∀ i, ones i = 1)
    (hzeros : ∀ i, zeros i = 0) (h1 : S100000.ShapeCasts S100000x1) (h2 : S128.ShapeCasts S1x128)
    (h3 : S1.ShapeCasts S1x1) (x : FVec Ideal S100000x128 .f32) (src dst : (⟨S1600000, .i32⟩ : BufTy).Contents (Elt Ideal))
    (W1 : FVec Ideal S128x128 .f32) (b1 : FVec Ideal S128 .f32) (W2 : FVec Ideal S128x128 .f32) (b2 : FVec Ideal S128 .f32) (W3 : FVec Ideal S128x128 .f32) (b3 : FVec Ideal S128 .f32) (W4 : FVec Ideal S128x128 .f32) (b4 : FVec Ideal S128 .f32) (W5 : FVec Ideal S128x128 .f32) (b5 : FVec Ideal S128 .f32) (W6 : FVec Ideal S128x128 .f32) (b6 : FVec Ideal S128 .f32) (Wl : FVec Ideal S128x1 .f32) (bl : FVec Ideal S1 .f32) :
    headR (aggR src dst (layR (aggR src dst (layR (aggR src dst (layR (aggR src dst (layR (aggR src dst (layR (aggR src dst (firstR x (normR src) W1)) (normR dst) (normR src) b1 W2)) (normR dst) (normR src) b2 W3)) (normR dst) (normR src) b3 W4)) (normR dst) (normR src) b4 W5)) (normR dst) (normR src) b5 W6)) (normR dst) b6 Wl bl
      = netR ones zeros h1 h2 h3 x src dst W1 b1 W2 b2 W3 b3 W4 b4 W5 b5 W6 b6 Wl bl := by
  have hl : ∀ (A : FVec Ideal S100000x128 .f32) (inn outn : FVec Ideal S100000 .f32) (b : FVec Ideal S128 .f32) (W : FVec Ideal S128x128 .f32),
      layR A inn outn b W = step relu0 A (shapeCast S100000x1 inn h1) (shapeCast S1x128 b h2) (shapeCast S100000x1 outn h1) W :=
    fun A inn outn b W => ref_step A inn outn b W h1 h2
  have hf : firstR x (normR src) W1 = step id x ones zeros (shapeCast S100000x1 (normR src) h1) W1 :=
    ref_first x (normR src) W1 h1 ones zeros hones hzeros
  have hh : ∀ (A : FVec Ideal S100000x128 .f32), headR A (normR dst) b6 Wl bl
      = head A (shapeCast S100000x1 (normR dst) h1) (shapeCast S1x128 b6 h2) Wl (shapeCast S1x1 bl h3) :=
    fun A => ref_head A (normR dst) b6 Wl bl h1 h2 h3
  rw [hh, hl, hl, hl, hl, hl, hf]
  rfl

set_option maxRecDepth 8192 in
/-- The run's result is the nest of launches at the arguments' contents. -/
theorem ref_value (m : (ℓ : Loc nD τ sig) → Buf (Elt Ideal) ℓ) (c : Dev nD) (ones : FVec Ideal S100000x1 .f32)
    (zeros : FVec Ideal S1x128 .f32) (hones : ∀ i, ones i = 1) (hzeros : ∀ i, zeros i = 0)
    (h1 : S100000.ShapeCasts S100000x1) (h2 : S128.ShapeCasts S1x128) (h3 : S1.ShapeCasts S1x1) :
    Cert.ReferenceIdeal.Value.res_main_v141 (F := Ideal) m c
      = netR ones zeros h1 h2 h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.Value.res_main_v141
  exact net_eq ones zeros hones hzeros h1 h2 h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

end Cert.ReferenceIdeal.RefValue

end
-- ==== Proof.lean ====
/- Six graph-convolution layers and a linear head on 100000 nodes and 1600000 edges.  Both programs compute, layer by
   layer, h' = act(((h · W) ⊙ d_out^(-1/2)) gathered at the edge sources, summed at the edge targets, ⊙ d_in^(-1/2), + b),
   and finally h · Wl + bl.  The kernel fuses "finish layer k" with "start layer k+1" in one tiled launch per layer.
   Over the extended reals every launch is one function of whole arrays (the launch formula: scale, shift, rectify,
   multiply by the weights, scale), the reference's chain of host operations for a layer is the same function, and
   the edge gather and scatter-add and the degree norms are the same host operations on both sides, applied to equal
   arrays.  The first launch is given a column of ones and a row of zeros in place of a norm and a bias:
   x · 1 + 0 = x holds for every extended real, so no finiteness of the inputs is used. -/
import proofs.«155896_j79139067396492_1_alg».proof.Defs
import proofs.«155896_j79139067396492_1_alg».proof.Proof.Gen.Kernel
import proofs.«155896_j79139067396492_1_alg».proof.Proof.Gen.Kernel.Frame
import proofs.«155896_j79139067396492_1_alg».proof.Proof.Gen.KernelIdeal
import proofs.«155896_j79139067396492_1_alg».proof.Proof.Gen.KernelIdeal.Frame
import proofs.«155896_j79139067396492_1_alg».proof.Proof.Gen.ReferenceIdeal
import proofs.«155896_j79139067396492_1_alg».proof.Proof.Gen.ReferenceIdeal.Run
import proofs.«155896_j79139067396492_1_alg».proof.Proof.Gen.ReferenceIdeal.Read
import proofs.«155896_j79139067396492_1_alg».proof.Proof.Gen.Pre_finite_inputs
import proofs.«155896_j79139067396492_1_alg».proof.Proof.KernelRun
import proofs.«155896_j79139067396492_1_alg».proof.Proof.KernelValue
import proofs.«155896_j79139067396492_1_alg».proof.Proof.RefNet
import Idealize.ShloMosaic.Lib.IdealHost
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- The first launch's stand-in norm column holds the f32 one, which is the real one. -/
theorem ones_apply (i : Cert.KernelIdeal.S100000x1.Idx) : Cert.KernelIdeal.Net.onesK i = 1 := by
  show broadcastInDim Cert.KernelIdeal.S100000x1 ![] _ (constant (F := Ideal) Cert.KernelIdeal.S_ .f32 0x3F800000#32) i = 1
  rw [ValueIdx.broadcastInDim_scalar_apply, ValueIdx.constant_apply, Ideal.ofBits_one_f32]

/-- The first launch's stand-in bias row holds the f32 zero, which is the real zero. -/
theorem zeros_apply (i : Cert.KernelIdeal.S1x128.Idx) : Cert.KernelIdeal.Net.zerosK i = 0 := by
  show broadcastInDim Cert.KernelIdeal.S1x128 ![] _ (constant (F := Ideal) Cert.KernelIdeal.S_ .f32 0x00000000#32) i = 0
  rw [ValueIdx.broadcastInDim_scalar_apply, ValueIdx.constant_apply, Ideal.ofBits_zero_f32]

/-- Both idealized programs, from memories that agree on the arguments, end with the same result: the kernel's last
    boundary contents of its result buffer are the nest of launch formulas of its arguments, and the reference's
    composed term is the same nest of the same arguments. -/
theorem algebraic : Cert.algebraic_KernelIdeal_ReferenceIdeal := by
  intro m ρ m' ρ' _ hagree
  refine ⟨fun c => Cert.KernelIdeal.Gen.W18 m ρ c (Proc.devRef .tc Cert.KernelIdeal.main_v90),
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  show Cert.ReferenceIdeal.Value.res_main_v141 m' c
    = Cert.KernelIdeal.Gen.W18 m ρ c (Proc.devRef .tc Cert.KernelIdeal.main_v90)
  rw [Cert.KernelIdeal.Net.result m ρ c,
    Cert.ReferenceIdeal.RefValue.ref_value m' c Cert.KernelIdeal.Net.onesK Cert.KernelIdeal.Net.zerosK ones_apply zeros_apply
      Cert.KernelIdeal.Gen.shapeCasts_S100000_S100000x1 Cert.KernelIdeal.Gen.shapeCasts_S128_S1x128
      Cert.KernelIdeal.Gen.shapeCasts_S1_S1x1,
    a0, a1, a2, a3, a4, a5, a6, a7, a8, a9, a10, a11, a12, a13, a14, a15, a16]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
